-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000x128 : Shape := ⟨2, ![1000, 128]⟩
abbrev S128x128 : Shape := ⟨2, ![128, 128]⟩
abbrev S128 : Shape := ⟨1, ![128]⟩
abbrev S128x256 : Shape := ⟨2, ![128, 256]⟩
abbrev S2x128 : Shape := ⟨2, ![2, 128]⟩
abbrev S2 : Shape := ⟨1, ![2]⟩
abbrev S_ : Shape := ⟨0, ![]⟩

class Facts : Prop where
  bcast_S_S1000x128 : S_.BroadcastsInDim S1000x128 (![] : Fin 0 → Fin S1000x128.rank)
  reducesTo_S1000x128_S_d0_1 : S1000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S128 .f32) (main_arg5 : FVec F S2x128 .f32) (main_arg6 : FVec F S2 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S2x128 .f32 := Host.absf main_arg5
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S2 .f32 := Host.absf main_arg6
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S1000x128 .f32) (main_arg1 : FVec F S128x128 .f32) (main_arg2 : FVec F S128 .f32) (main_arg3 : FVec F S128x256 .f32) (main_arg4 : FVec F S128 .f32) (main_arg5 : FVec F S2x128 .f32) (main_arg6 : FVec F S2 .f32) : IVec S_ 1 :=
  let main_v0 : FVec F S1000x128 .f32 := Host.absf main_arg0
  let main_cst : FVec F S_ .f32 := constant S_ .f32 0x7F800000#32
  let main_v1 : FVec F S1000x128 .f32 := broadcastInDim S1000x128 ![] bcast_S_S1000x128 main_cst
  let main_v2 : IVec S1000x128 1 := cmpf .olt main_v0 main_v1
  let main_c : IVec S_ 1 := constantI S_ 1 1#1
  let main_v3 : IVec S_ 1 := (fun x v => Host.reduce IntOp.andi x v reducesTo_S1000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_v13 main_v16
-- ==== Kernel.lean ====
abbrev S1000x128 : Shape := ⟨2, ![1000, 128]⟩
abbrev S128x128 : Shape := ⟨2, ![128, 128]⟩
abbrev S128 : Shape := ⟨1, ![128]⟩
abbrev S128x256 : Shape := ⟨2, ![128, 256]⟩
abbrev S2x128 : Shape := ⟨2, ![2, 128]⟩
abbrev S2 : Shape := ⟨1, ![2]⟩
abbrev S1000x2 : Shape := ⟨2, ![1000, 2]⟩
abbrev S1x128 : Shape := ⟨2, ![1, 128]⟩
abbrev S999x128 : Shape := ⟨2, ![999, 128]⟩
abbrev S1x2 : Shape := ⟨2, ![1, 2]⟩

abbrev nBuf : Space → Nat
  | .hbm => 8
  | .vmem => 8
  | .smem => 0
  | _ => 0

abbrev bufTy : (tb : Table) → Fin (tcTables nBuf tb) → BufTy
  | .hbm, ⟨0, _⟩ => ⟨S1000x128, .f32⟩
  | .hbm, ⟨1, _⟩ => ⟨S128x128, .f32⟩
  | .hbm, ⟨2, _⟩ => ⟨S128, .f32⟩
  | .hbm, ⟨3, _⟩ => ⟨S128x256, .f32⟩
  | .hbm, ⟨4, _⟩ => ⟨S128, .f32⟩
  | .hbm, ⟨5, _⟩ => ⟨S2x128, .f32⟩
  | .hbm, ⟨6, _⟩ => ⟨S2, .f32⟩
  | .hbm, ⟨7, _⟩ => ⟨S1000x2, .f32⟩
  | .local _ .vmem, ⟨0, _⟩ => ⟨S1000x128, .f32⟩
  | .local _ .vmem, ⟨1, _⟩ => ⟨S128x128, .f32⟩
  | .local _ .vmem, ⟨2, _⟩ => ⟨S128, .f32⟩
  | .local _ .vmem, ⟨3, _⟩ => ⟨S128x256, .f32⟩
  | .local _ .vmem, ⟨4, _⟩ => ⟨S128, .f32⟩
  | .local _ .vmem, ⟨5, _⟩ => ⟨S2x128, .f32⟩
  | .local _ .vmem, ⟨6, _⟩ => ⟨S2, .f32⟩
  | .local _ .vmem, ⟨7, _⟩ => ⟨S1000x2, .f32⟩
  | _, _ => ⟨S1000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1000x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

class Facts₀ : Prop where
  inb_S1000x128_S1000x128_0_0 : ∀ a, (![0, 0] : Fin 2 → Nat) a + S1000x128.size a ≤ S1000x128.size a
  h_S1000x128 : 0 < S1000x128.numel
  inb_S128_S128_0 : ∀ a, (![0] : Fin 1 → Nat) a + S128.size a ≤ S128.size a
  h_S128 : 0 < S128.numel
  inb_S128x256_S128x128_0_0 : ∀ a, (![0, 0] : Fin 2 → Nat) a + S128x128.size a ≤ S128x256.size a
  h_S128x128 : 0 < S128x128.numel
  inb_S128x256_S128x128_0_128 : ∀ a, (![0, 128] : Fin 2 → Nat) a + S128x128.size a ≤ S128x256.size a
  inb_S128x128_S128x128_0_0 : ∀ a, (![0, 0] : Fin 2 → Nat) a + S128x128.size a ≤ S128x128.size a
  shapeCasts_S128_S1x128 : S128.ShapeCasts S1x128
  broadcasts_S1x128_S1000x128 : S1x128.Broadcasts S1000x128
  slices_S1000x128_o1_0_S999x128 : S1000x128.Slices ![1, 0] S999x128
  slices_S1000x128_o0_0_S1x128 : S1000x128.Slices ![0, 0] S1x128
  concatenates_S999x128_S1x128_S1000x128_d0 : Shape.Concatenates [S999x128, S1x128] S1000x128 0
  inb_S2x128_S2x128_0_0 : ∀ a, (![0, 0] : Fin 2 → Nat) a + S2x128.size a ≤ S2x128.size a
  h_S2x128 : 0 < S2x128.numel
  inb_S2_S2_0 : ∀ a, (![0] : Fin 1 → Nat) a + S2.size a ≤ S2.size a
  h_S2 : 0 < S2.numel
  shapeCasts_S2_S1x2 : S2.ShapeCasts S1x2
  broadcasts_S1x2_S1000x2 : S1x2.Broadcasts S1000x2
  inb_S1000x2_S1000x2_0_0 : ∀ a, (![0, 0] : Fin 2 → Nat) a + S1000x2.size a ≤ S1000x2.size a
  h_S1000x2 : 0 < S1000x2.numel
  dot_S1000x128_S128x128_S1000x128_1_1_0_0_n_n_wf : DotDims.WF S1000x128 S128x128 S1000x128 [1] [1] [0] [0] [] []
  dot_S1000x128_S2x128_S1000x2_1_1_0_0_n_n_wf : DotDims.WF S1000x128 S2x128 S1000x2 [1] [1] [0] [0] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole

variable [Facts₀]

def dot_S1000x128_S128x128_S1000x128_1_1_0_0_n_n : DotDims S1000x128 S128x128 S1000x128 where
  lhsContracting := [1]
  rhsContracting := [1]
  lhsNonContracting := [0]
  rhsNonContracting := [0]
  lhsBatch := []
  rhsBatch := []
  wf := dot_S1000x128_S128x128_S1000x128_1_1_0_0_n_n_wf
def dot_S1000x128_S2x128_S1000x2_1_1_0_0_n_n : DotDims S1000x128 S2x128 S1000x2 where
  lhsContracting := [1]
  rhsContracting := [1]
  lhsNonContracting := [0]
  rhsNonContracting := [0]
  lhsBatch := []
  rhsBatch := []
  wf := dot_S1000x128_S2x128_S1000x2_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_arg5) false false (stage0_5 0) (sem0_5 0) (Memref.isWhole_whole _) (hstage0_5 0)

abbrev win0_6 : Pipeline.Window sig grid0 :=
  Pipeline.Window.whole (Memref.whole main_arg6) false false (stage0_6 0) (sem0_6 0) (Memref.isWhole_whole _) (hstage0_6 0)

abbrev win0_7 : Pipeline.Window sig grid0 :=
  Pipeline.Window.whole (Memref.whole main_v0) true false (stage0_7 0) (sem0_7 0) (Memref.isWhole_whole _) (hstage0_7 0)

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1000x128 : Shape := ⟨2, ![1000, 128]⟩
abbrev S128x128 : Shape := ⟨2, ![128, 128]⟩
abbrev S128 : Shape := ⟨1, ![128]⟩
abbrev S128x256 : Shape := ⟨2, ![128, 256]⟩
abbrev S2x128 : Shape := ⟨2, ![2, 128]⟩
abbrev S2 : Shape := ⟨1, ![2]⟩
abbrev S1000 : Shape := ⟨1, ![1000]⟩
abbrev S_ : Shape := ⟨0, ![]⟩
abbrev S1000x1 : Shape := ⟨2, ![1000, 1]⟩
abbrev S1 : Shape := ⟨1, ![1]⟩
abbrev S1x1 : Shape := ⟨2, ![1, 1]⟩
abbrev S1x128 : Shape := ⟨2, ![1, 128]⟩
abbrev S1000x256 : Shape := ⟨2, ![1000, 256]⟩
abbrev S256x128 : Shape := ⟨2, ![256, 128]⟩
abbrev S128x2 : Shape := ⟨2, ![128, 2]⟩
abbrev S1000x2 : Shape := ⟨2, ![1000, 2]⟩
abbrev S1x2 : Shape := ⟨2, ![1, 2]⟩

abbrev nBuf : Space → Nat
  | .hbm => 204
  | .vmem => 0
  | .smem => 0
  | _ => 0

abbrev hbmTy0_0 (i : Nat) : BufTy := match i % 128 with
  | 0 => ⟨S1000x128, .f32⟩
  | 1 => ⟨S128x128, .f32⟩
  | 2 => ⟨S128, .f32⟩
  | 3 => ⟨S128x256, .f32⟩
  | 4 => ⟨S128, .f32⟩
  | 5 => ⟨S2x128, .f32⟩
  | 6 => ⟨S2, .f32⟩
  | 7 => ⟨S1000, .i32⟩
  | 8 => ⟨S_, .i32⟩
  | 9 => ⟨S1000, .i32⟩
  | 10 => ⟨S1000, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S1000, .i32⟩
  | 18 => ⟨S1000, .i32⟩
  | 19 => ⟨S_, .i32⟩
  | 20 => ⟨S1000, .i32⟩
  | 21 => ⟨S1000, .i1⟩
  | 22 => ⟨S_, .i32⟩
  | 23 => ⟨S1000, .i32⟩
  | 24 => ⟨S1000, .i1⟩
  | 25 => ⟨S_, .i32⟩
  | 26 => ⟨S_, .i1⟩
  | 27 => ⟨S1000, .i1⟩
  | 28 => ⟨S1000, .i1⟩
  | 29 => ⟨S1000, .i1⟩
  | 30 => ⟨S1000, .i32⟩
  | 31 => ⟨S1000, .i32⟩
  | 32 => ⟨S1000, .i32⟩
  | 33 => ⟨S_, .i32⟩
  | 34 => ⟨S1000, .i32⟩
  | 35 => ⟨S1000, .i1⟩
  | 36 => ⟨S_, .i32⟩
  | 37 => ⟨S1000, .i32⟩
  | 38 => ⟨S1000, .i32⟩
  | 39 => ⟨S1000, .i32⟩
  | 40 => ⟨S1000x1, .i32⟩
  | 41 => ⟨S1, .i32⟩
  | 42 => ⟨S_, .i32⟩
  | 43 => ⟨S1000x1, .i32⟩
  | 44 => ⟨S1000x1, .i1⟩
  | 45 => ⟨S1x1, .i32⟩
  | 46 => ⟨S1000x1, .i32⟩
  | 47 => ⟨S1000x1, .i1⟩
  | 48 => ⟨S1000x1, .i1⟩
  | 49 => ⟨S_, .i1⟩
  | 50 => ⟨S1000, .i1⟩
  | 51 => ⟨S1000x128, .f32⟩
  | 52 => ⟨S1000x128, .i1⟩
  | 53 => ⟨S_, .f32⟩
  | 54 => ⟨S1000x128, .f32⟩
  | 55 => ⟨S1000x128, .f32⟩
  | 56 => ⟨S128x128, .f32⟩
  | 57 => ⟨S1000x128, .f32⟩
  | 58 => ⟨S1x128, .f32⟩
  | 59 => ⟨S1000x128, .f32⟩
  | 60 => ⟨S1000x128, .f32⟩
  | 61 => ⟨S_, .f32⟩
  | 62 => ⟨S1000x128, .f32⟩
  | 63 => ⟨S1000x128, .f32⟩
  | 64 => ⟨S_, .i32⟩
  | 65 => ⟨S1000, .i32⟩
  | 66 => ⟨S1000, .i1⟩
  | 67 => ⟨S_, .i32⟩
  | 68 => ⟨S1000, .i32⟩
  | 69 => ⟨S1000, .i32⟩
  | 70 => ⟨S1000, .i32⟩
  | 71 => ⟨S1000x1, .i32⟩
  | 72 => ⟨S1, .i32⟩
  | 73 => ⟨S_, .i32⟩
  | 74 => ⟨S1000x1, .i32⟩
  | 75 => ⟨S1000x1, .i1⟩
  | 76 => ⟨S1x1, .i32⟩
  | 77 => ⟨S1000x1, .i32⟩
  | 78 => ⟨S1000x1, .i1⟩
  | 79 => ⟨S1000x1, .i1⟩
  | 80 => ⟨S_, .i1⟩
  | 81 => ⟨S1000, .i1⟩
  | 82 => ⟨S1000x128, .f32⟩
  | 83 => ⟨S1000x128, .i1⟩
  | 84 => ⟨S_, .f32⟩
  | 85 => ⟨S1000x128, .f32⟩
  | 86 => ⟨S1000x128, .f32⟩
  | 87 => ⟨S128x128, .f32⟩
  | 88 => ⟨S1000x128, .f32⟩
  | 89 => ⟨S1x128, .f32⟩
  | 90 => ⟨S1000x128, .f32⟩
  | 91 => ⟨S1000x128, .f32⟩
  | 92 => ⟨S_, .f32⟩
  | 93 => ⟨S1000x128, .f32⟩
  | 94 => ⟨S1000x128, .f32⟩
  | 95 => ⟨S1000x256, .f32⟩
  | 96 => ⟨S256x128, .f32⟩
  | 97 => ⟨S1000x128, .f32⟩
  | 98 => ⟨S1x128, .f32⟩
  | 99 => ⟨S1000x128, .f32⟩
  | 100 => ⟨S1000x128, .f32⟩
  | 101 => ⟨S_, .f32⟩
  | 102 => ⟨S1000x128, .f32⟩
  | 103 => ⟨S1000x128, .f32⟩
  | 104 => ⟨S_, .i32⟩
  | 105 => ⟨S1000, .i32⟩
  | 106 => ⟨S1000, .i1⟩
  | 107 => ⟨S_, .i32⟩
  | 108 => ⟨S1000, .i32⟩
  | 109 => ⟨S1000, .i32⟩
  | 110 => ⟨S1000, .i32⟩
  | 111 => ⟨S1000x1, .i32⟩
  | 112 => ⟨S1, .i32⟩
  | 113 => ⟨S_, .i32⟩
  | 114 => ⟨S1000x1, .i32⟩
  | 115 => ⟨S1000x1, .i1⟩
  | 116 => ⟨S1x1, .i32⟩
  | 117 => ⟨S1000x1, .i32⟩
  | 118 => ⟨S1000x1, .i1⟩
  | 119 => ⟨S1000x1, .i1⟩
  | 120 => ⟨S_, .i1⟩
  | 121 => ⟨S1000, .i1⟩
  | 122 => ⟨S1000x128, .f32⟩
  | 123 => ⟨S1000x128, .i1⟩
  | 124 => ⟨S_, .f32⟩
  | 125 => ⟨S1000x128, .f32⟩
  | 126 => ⟨S1000x128, .f32⟩
  | 127 => ⟨S128x128, .f32⟩
  | _ => ⟨S1000x128, .f32⟩

abbrev hbmTy0_1 (i : Nat) : BufTy := match i % 128 with
  | 0 => ⟨S1000x128, .f32⟩
  | 1 => ⟨S1x128, .f32⟩
  | 2 => ⟨S1000x128, .f32⟩
  | 3 => ⟨S1000x128, .f32⟩
  | 4 => ⟨S_, .f32⟩
  | 5 => ⟨S1000x128, .f32⟩
  | 6 => ⟨S1000x128, .f32⟩
  | 7 => ⟨S_, .i32⟩
  | 8 => ⟨S1000, .i32⟩
  | 9 => ⟨S1000, .i1⟩
  | 10 => ⟨S_, .i32⟩
  | 11 => ⟨S1000, .i32⟩
  | 12 => ⟨S1000, .i32⟩
  | 13 => ⟨S1000, .i32⟩
  | 14 => ⟨S1000x1, .i32⟩
  | 15 => ⟨S1, .i32⟩
  | 16 => ⟨S_, .i32⟩
  | 17 => ⟨S1000x1, .i32⟩
  | 18 => ⟨S1000x1, .i1⟩
  | 19 => ⟨S1x1, .i32⟩
  | 20 => ⟨S1000x1, .i32⟩
  | 21 => ⟨S1000x1, .i1⟩
  | 22 => ⟨S1000x1, .i1⟩
  | 23 => ⟨S_, .i1⟩
  | 24 => ⟨S1000, .i1⟩
  | 25 => ⟨S1000x128, .f32⟩
  | 26 => ⟨S1000x128, .i1⟩
  | 27 => ⟨S_, .f32⟩
  | 28 => ⟨S1000x128, .f32⟩
  | 29 => ⟨S1000x128, .f32⟩
  | 30 => ⟨S128x128, .f32⟩
  | 31 => ⟨S1000x128, .f32⟩
  | 32 => ⟨S1x128, .f32⟩
  | 33 => ⟨S1000x128, .f32⟩
  | 34 => ⟨S1000x128, .f32⟩
  | 35 => ⟨S_, .f32⟩
  | 36 => ⟨S1000x128, .f32⟩
  | 37 => ⟨S1000x128, .f32⟩
  | 38 => ⟨S1000x256, .f32⟩
  | 39 => ⟨S256x128, .f32⟩
  | 40 => ⟨S1000x128, .f32⟩
  | 41 => ⟨S1x128, .f32⟩
  | 42 => ⟨S1000x128, .f32⟩
  | 43 => ⟨S1000x128, .f32⟩
  | 44 => ⟨S_, .f32⟩
  | 45 => ⟨S1000x128, .f32⟩
  | 46 => ⟨S1000x128, .f32⟩
  | 47 => ⟨S1000x128, .f32⟩
  | 48 => ⟨S_, .f32⟩
  | 49 => ⟨S1000x128, .f32⟩
  | 50 => ⟨S1000x128, .f32⟩
  | 51 => ⟨S_, .f32⟩
  | 52 => ⟨S1000x128, .f32⟩
  | 53 => ⟨S1000x128, .f32⟩
  | 54 => ⟨S128x128, .f32⟩
  | 55 => ⟨S1000x128, .f32⟩
  | 56 => ⟨S1x128, .f32⟩
  | 57 => ⟨S1000x128, .f32⟩
  | 58 => ⟨S1000x128, .f32⟩
  | 59 => ⟨S_, .f32⟩
  | 60 => ⟨S1000x128, .f32⟩
  | 61 => ⟨S1000x128, .f32⟩
  | 62 => ⟨S1000x256, .f32⟩
  | 63 => ⟨S256x128, .f32⟩
  | 64 => ⟨S1000x128, .f32⟩
  | 65 => ⟨S1x128, .f32⟩
  | 66 => ⟨S1000x128, .f32⟩
  | 67 => ⟨S1000x128, .f32⟩
  | 68 => ⟨S_, .f32⟩
  | 69 => ⟨S1000x128, .f32⟩
  | 70 => ⟨S1000x128, .f32⟩
  | 71 => ⟨S128x2, .f32⟩
  | 72 => ⟨S1000x2, .f32⟩
  | 73 => ⟨S1x2, .f32⟩
  | 74 => ⟨S1000x2, .f32⟩
  | 75 => ⟨S1000x2, .f32⟩
  | _ => ⟨S1000x128, .f32⟩

abbrev hbmTy (i : Nat) : BufTy := match i / 128 with
  | 0 => hbmTy0_0 i
  | 1 => hbmTy0_1 i
  | _ => ⟨S1000x128, .f32⟩

abbrev bufTy : (tb : Table) → Fin (tcTables nBuf tb) → BufTy
  | .hbm, ⟨i, _⟩ => hbmTy i
  | _, _ => ⟨S1000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v3 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v4 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_call2_cst : Ref sig .tc := ⟨.hbm, 61, rfl⟩
abbrev main_call2_v0 : Ref sig .tc := ⟨.hbm, 62, rfl⟩
abbrev main_v10 : Ref sig .tc := ⟨.hbm, 63, rfl⟩
abbrev main_call3_c : Ref sig .tc := ⟨.hbm, 64, rfl⟩
abbrev main_call3_v0 : Ref sig .tc := ⟨.hbm, 65, rfl⟩
abbrev main_call3_v1 : Ref sig .tc := ⟨.hbm, 66, rfl⟩
abbrev main_call3_c_0 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_v5 : Ref sig .tc := ⟨.hbm, 71, rfl⟩
abbrev main_call3_c_1 : Ref sig .tc := ⟨.hbm, 72, rfl⟩
abbrev main_call3_c_2 : Ref sig .tc := ⟨.hbm, 73, rfl⟩
abbrev main_call3_v6 : Ref sig .tc := ⟨.hbm, 74, rfl⟩
abbrev main_call3_v7 : Ref sig .tc := ⟨.hbm, 75, rfl⟩
abbrev main_call3_v8 : Ref sig .tc := ⟨.hbm, 76, rfl⟩
abbrev main_call3_v9 : Ref sig .tc := ⟨.hbm, 77, rfl⟩
abbrev main_call3_v10 : Ref sig .tc := ⟨.hbm, 78, rfl⟩
abbrev main_call3_v11 : Ref sig .tc := ⟨.hbm, 79, rfl⟩
abbrev main_call3_c_3 : Ref sig .tc := ⟨.hbm, 80, rfl⟩
abbrev main_call3_v12 : Ref sig .tc := ⟨.hbm, 81, rfl⟩
abbrev main_call3_v13 : Ref sig .tc := ⟨.hbm, 82, rfl⟩
abbrev main_call3_v14 : Ref sig .tc := ⟨.hbm, 83, rfl⟩
abbrev main_call3_cst : Ref sig .tc := ⟨.hbm, 84, rfl⟩
abbrev main_call3_v15 : Ref sig .tc := ⟨.hbm, 85, rfl⟩
abbrev main_v11 : Ref sig .tc := ⟨.hbm, 86, rfl⟩
abbrev main_v12 : Ref sig .tc := ⟨.hbm, 87, rfl⟩
abbrev main_v13 : Ref sig .tc := ⟨.hbm, 88, rfl⟩
abbrev main_v14 : Ref sig .tc := ⟨.hbm, 89, rfl⟩
abbrev main_v15 : Ref sig .tc := ⟨.hbm, 90, rfl⟩
abbrev main_v16 : Ref sig .tc := ⟨.hbm, 91, rfl⟩
abbrev main_call4_cst : Ref sig .tc := ⟨.hbm, 92, rfl⟩
abbrev main_call4_v0 : Ref sig .tc := ⟨.hbm, 93, rfl⟩
abbrev main_v17 : Ref sig .tc := ⟨.hbm, 94, rfl⟩
abbrev main_v18 : Ref sig .tc := ⟨.hbm, 95, rfl⟩
abbrev main_v19 : Ref sig .tc := ⟨.hbm, 96, rfl⟩
abbrev main_v20 : Ref sig .tc := ⟨.hbm, 97, rfl⟩
abbrev main_v21 : Ref sig .tc := ⟨.hbm, 98, rfl⟩
abbrev main_v22 : Ref sig .tc := ⟨.hbm, 99, rfl⟩
abbrev main_v23 : Ref sig .tc := ⟨.hbm, 100, rfl⟩
abbrev main_call5_cst : Ref sig .tc := ⟨.hbm, 101, rfl⟩
abbrev main_call5_v0 : Ref sig .tc := ⟨.hbm, 102, rfl⟩
abbrev main_v24 : Ref sig .tc := ⟨.hbm, 103, rfl⟩
abbrev main_call6_c : Ref sig .tc := ⟨.hbm, 104, rfl⟩
abbrev main_call6_v0 : Ref sig .tc := ⟨.hbm, 105, rfl⟩
abbrev main_call6_v1 : Ref sig .tc := ⟨.hbm, 106, rfl⟩
abbrev main_call6_c_0 : Ref sig .tc := ⟨.hbm, 107, rfl⟩
abbrev main_call6_v2 : Ref sig .tc := ⟨.hbm, 108, rfl⟩
abbrev main_call6_v3 : Ref sig .tc := ⟨.hbm, 109, rfl⟩
abbrev main_call6_v4 : Ref sig .tc := ⟨.hbm, 110, rfl⟩
abbrev main_call6_v5 : Ref sig .tc := ⟨.hbm, 111, rfl⟩
abbrev main_call6_c_1 : Ref sig .tc := ⟨.hbm, 112, rfl⟩
abbrev main_call6_c_2 : Ref sig .tc := ⟨.hbm, 113, rfl⟩
abbrev main_call6_v6 : Ref sig .tc := ⟨.hbm, 114, rfl⟩
abbrev main_call6_v7 : Ref sig .tc := ⟨.hbm, 115, rfl⟩
abbrev main_call6_v8 : Ref sig .tc := ⟨.hbm, 116, rfl⟩
abbrev main_call6_v9 : Ref sig .tc := ⟨.hbm, 117, rfl⟩
abbrev main_call6_v10 : Ref sig .tc := ⟨.hbm, 118, rfl⟩
abbrev main_call6_v11 : Ref sig .tc := ⟨.hbm, 119, rfl⟩
abbrev main_call6_c_3 : Ref sig .tc := ⟨.hbm, 120, rfl⟩
abbrev main_call6_v12 : Ref sig .tc := ⟨.hbm, 121, rfl⟩
abbrev main_call6_v13 : Ref sig .tc := ⟨.hbm, 122, rfl⟩
abbrev main_call6_v14 : Ref sig .tc := ⟨.hbm, 123, rfl⟩
abbrev main_call6_cst : Ref sig .tc := ⟨.hbm, 124, rfl⟩
abbrev main_call6_v15 : Ref sig .tc := ⟨.hbm, 125, rfl⟩
abbrev main_v25 : Ref sig .tc := ⟨.hbm, 126, rfl⟩
abbrev main_v26 : Ref sig .tc := ⟨.hbm, 127, rfl⟩
abbrev main_v27 : Ref sig .tc := ⟨.hbm, 128, rfl⟩
abbrev main_v28 : Ref sig .tc := ⟨.hbm, 129, rfl⟩
abbrev main_v29 : Ref sig .tc := ⟨.hbm, 130, rfl⟩
abbrev main_v30 : Ref sig .tc := ⟨.hbm, 131, rfl⟩
abbrev main_call7_cst : Ref sig .tc := ⟨.hbm, 132, rfl⟩
abbrev main_call7_v0 : Ref sig .tc := ⟨.hbm, 133, rfl⟩
abbrev main_v31 : Ref sig .tc := ⟨.hbm, 134, rfl⟩
abbrev main_call8_c : Ref sig .tc := ⟨.hbm, 135, rfl⟩
abbrev main_call8_v0 : Ref sig .tc := ⟨.hbm, 136, rfl⟩
abbrev main_call8_v1 : Ref sig .tc := ⟨.hbm, 137, rfl⟩
abbrev main_call8_c_0 : Ref sig .tc := ⟨.hbm, 138, rfl⟩
abbrev main_call8_v2 : Ref sig .tc := ⟨.hbm, 139, rfl⟩
abbrev main_call8_v3 : Ref sig .tc := ⟨.hbm, 140, rfl⟩
abbrev main_call8_v4 : Ref sig .tc := ⟨.hbm, 141, rfl⟩
abbrev main_call8_v5 : Ref sig .tc := ⟨.hbm, 142, rfl⟩
abbrev main_call8_c_1 : Ref sig .tc := ⟨.hbm, 143, rfl⟩
abbrev main_call8_c_2 : Ref sig .tc := ⟨.hbm, 144, rfl⟩
abbrev main_call8_v6 : Ref sig .tc := ⟨.hbm, 145, rfl⟩
abbrev main_call8_v7 : Ref sig .tc := ⟨.hbm, 146, rfl⟩
abbrev main_call8_v8 : Ref sig .tc := ⟨.hbm, 147, rfl⟩
abbrev main_call8_v9 : Ref sig .tc := ⟨.hbm, 148, rfl⟩
abbrev main_call8_v10 : Ref sig .tc := ⟨.hbm, 149, rfl⟩
abbrev main_call8_v11 : Ref sig .tc := ⟨.hbm, 150, rfl⟩
abbrev main_call8_c_3 : Ref sig .tc := ⟨.hbm, 151, rfl⟩
abbrev main_call8_v12 : Ref sig .tc := ⟨.hbm, 152, rfl⟩
abbrev main_call8_v13 : Ref sig .tc := ⟨.hbm, 153, rfl⟩
abbrev main_call8_v14 : Ref sig .tc := ⟨.hbm, 154, rfl⟩
abbrev main_call8_cst : Ref sig .tc := ⟨.hbm, 155, rfl⟩
abbrev main_call8_v15 : Ref sig .tc := ⟨.hbm, 156, rfl⟩
abbrev main_v32 : Ref sig .tc := ⟨.hbm, 157, rfl⟩
abbrev main_v33 : Ref sig .tc := ⟨.hbm, 158, rfl⟩
abbrev main_v34 : Ref sig .tc := ⟨.hbm, 159, rfl⟩
abbrev main_v35 : Ref sig .tc := ⟨.hbm, 160, rfl⟩
abbrev main_v36 : Ref sig .tc := ⟨.hbm, 161, rfl⟩
abbrev main_v37 : Ref sig .tc := ⟨.hbm, 162, rfl⟩
abbrev main_call9_cst : Ref sig .tc := ⟨.hbm, 163, rfl⟩
abbrev main_call9_v0 : Ref sig .tc := ⟨.hbm, 164, rfl⟩
abbrev main_v38 : Ref sig .tc := ⟨.hbm, 165, rfl⟩
abbrev main_v39 : Ref sig .tc := ⟨.hbm, 166, rfl⟩
abbrev main_v40 : Ref sig .tc := ⟨.hbm, 167, rfl⟩
abbrev main_v41 : Ref sig .tc := ⟨.hbm, 168, rfl⟩
abbrev main_v42 : Ref sig .tc := ⟨.hbm, 169, rfl⟩
abbrev main_v43 : Ref sig .tc := ⟨.hbm, 170, rfl⟩
abbrev main_v44 : Ref sig .tc := ⟨.hbm, 171, rfl⟩
abbrev main_call10_cst : Ref sig .tc := ⟨.hbm, 172, rfl⟩
abbrev main_call10_v0 : Ref sig .tc := ⟨.hbm, 173, rfl⟩
abbrev main_v45 : Ref sig .tc := ⟨.hbm, 174, rfl⟩
abbrev main_v46 : Ref sig .tc := ⟨.hbm, 175, rfl⟩
abbrev main_cst : Ref sig .tc := ⟨.hbm, 176, rfl⟩
abbrev main_v47 : Ref sig .tc := ⟨.hbm, 177, rfl⟩
abbrev main_v48 : Ref sig .tc := ⟨.hbm, 178, rfl⟩
abbrev main_call11_cst : Ref sig .tc := ⟨.hbm, 179, rfl⟩
abbrev main_call11_v0 : Ref sig .tc := ⟨.hbm, 180, rfl⟩
abbrev main_v49 : Ref sig .tc := ⟨.hbm, 181, rfl⟩
abbrev main_v50 : Ref sig .tc := ⟨.hbm, 182, rfl⟩
abbrev main_v51 : Ref sig .tc := ⟨.hbm, 183, rfl⟩
abbrev main_v52 : Ref sig .tc := ⟨.hbm, 184, rfl⟩
abbrev main_v53 : Ref sig .tc := ⟨.hbm, 185, rfl⟩
abbrev main_v54 : Ref sig .tc := ⟨.hbm, 186, rfl⟩
abbrev main_call12_cst : Ref sig .tc := ⟨.hbm, 187, rfl⟩
abbrev main_call12_v0 : Ref sig .tc := ⟨.hbm, 188, rfl⟩
abbrev main_v55 : Ref sig .tc := ⟨.hbm, 189, rfl⟩
abbrev main_v56 : Ref sig .tc := ⟨.hbm, 190, rfl⟩
abbrev main_v57 : Ref sig .tc := ⟨.hbm, 191, rfl⟩
abbrev main_v58 : Ref sig .tc := ⟨.hbm, 192, rfl⟩
abbrev main_v59 : Ref sig .tc := ⟨.hbm, 193, rfl⟩
abbrev main_v60 : Ref sig .tc := ⟨.hbm, 194, rfl⟩
abbrev main_v61 : Ref sig .tc := ⟨.hbm, 195, rfl⟩
abbrev main_call13_cst : Ref sig .tc := ⟨.hbm, 196, rfl⟩
abbrev main_call13_v0 : Ref sig .tc := ⟨.hbm, 197, rfl⟩
abbrev main_v62 : Ref sig .tc := ⟨.hbm, 198, rfl⟩
abbrev main_v63 : Ref sig .tc := ⟨.hbm, 199, rfl⟩
abbrev main_v64 : Ref sig .tc := ⟨.hbm, 200, rfl⟩
abbrev main_v65 : Ref sig .tc := ⟨.hbm, 201, rfl⟩
abbrev main_v66 : Ref sig .tc := ⟨.hbm, 202, rfl⟩
abbrev main_v67 : Ref sig .tc := ⟨.hbm, 203, rfl⟩

abbrev nD : Nat := 1
abbrev τ : Topo := Topo.v7x

variable {F : FTy → Type} [FloatOps F]

class Facts₀ : Prop where
  bcast_S_S1000 : S_.BroadcastsInDim S1000 (![] : Fin 0 → Fin S1000.rank)
  bcast_S1000_S1000x1_0 : S1000.BroadcastsInDim S1000x1 (![0] : Fin 1 → Fin S1000x1.rank)
  bcast_S_S1000x1 : S_.BroadcastsInDim S1000x1 (![] : Fin 0 → Fin S1000x1.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  reducesTo_S1000x1_S1000_d1 : S1000x1.ReducesTo [1] S1000
  h_S_ : 0 < S_.numel
  bcast_S1000_S1000x128_0 : S1000.BroadcastsInDim S1000x128 (![0] : Fin 1 → Fin S1000x128.rank)
  bcast_S_S1000x128 : S_.BroadcastsInDim S1000x128 (![] : Fin 0 → Fin S1000x128.rank)
  transposes_S128x128_S128x128_1_0 : S128x128.Transposes [1, 0] S128x128
  bcast_S128_S1x128_1 : S128.BroadcastsInDim S1x128 (![1] : Fin 1 → Fin S1x128.rank)
  bcast_S1x128_S1000x128_0_1 : S1x128.BroadcastsInDim S1000x128 (![0, 1] : Fin 2 → Fin S1000x128.rank)
  concatenates_S1000x128_S1000x128_S1000x256_d1 : Shape.Concatenates [S1000x128, S1000x128] S1000x256 1
  transposes_S128x256_S256x128_1_0 : S128x256.Transposes [1, 0] S256x128
  transposes_S2x128_S128x2_1_0 : S2x128.Transposes [1, 0] S128x2
  bcast_S2_S1x2_1 : S2.BroadcastsInDim S1x2 (![1] : Fin 1 → Fin S1x2.rank)
  bcast_S1x2_S1000x2_0_1 : S1x2.BroadcastsInDim S1000x2 (![0, 1] : Fin 2 → Fin S1000x2.rank)
  gather_S1000x128_S1000x1_S1000x128_1_0_n_n_0_1_1128_wf : GatherDims.WF S1000x128 S1000x1 S1000x128 [1] [0] [] [0] [] 1 ![1, 128]
  dot_S1000x128_S128x128_S1000x128_1_0_0_1_n_n_wf : DotDims.WF S1000x128 S128x128 S1000x128 [1] [0] [0] [1] [] []
  dot_S1000x256_S256x128_S1000x128_1_0_0_1_n_n_wf : DotDims.WF S1000x256 S256x128 S1000x128 [1] [0] [0] [1] [] []
  dot_S1000x128_S128x2_S1000x2_1_0_0_1_n_n_wf : DotDims.WF S1000x128 S128x2 S1000x2 [1] [0] [0] [1] [] []

variable [Facts₀]

def gather_S1000x128_S1000x1_S1000x128_1_0_n_n_0_1_1128 : GatherDims S1000x128 S1000x1 S1000x128 where
  offsetDims := [1]
  collapsedSliceDims := [0]
  operandBatchingDims := []
  startIndicesBatchingDims := []
  startIndexMap := [0]
  indexVectorDim := 1
  sliceSizes := ![1, 128]
  wf := gather_S1000x128_S1000x1_S1000x128_1_0_n_n_0_1_1128_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def dot_S1000x128_S128x2_S1000x2_1_0_0_1_n_n : DotDims S1000x128 S128x2 S1000x2 where
  lhsContracting := [1]
  rhsContracting := [0]
  lhsNonContracting := [0]
  rhsNonContracting := [1]
  lhsBatch := []
  rhsBatch := []
  wf := dot_S1000x128_S128x2_S1000x2_1_0_0_1_n_n_wf

class Facts : Prop extends Facts₀ where

variable [Facts]
-- ==== Proof.KernelValue.lean ====
/-
  What the kernel's result array holds after the run, as ONE function of the argument arrays.

  The kernel has no grid: one point, every window the whole of its array. So the one block of each input is the
  array itself, the body's single store covers the result's staging buffer, and the block written back is the
  whole result. The result array therefore ends holding the body's arithmetic — the composed term of its two
  payloads — applied to the argument arrays, with the two halves of the 128 × 256 matrix read through their
  rectangles (columns 0 … 127 and 128 … 255).
-/
import proofs.«101825_g80925773791738_cont_9to1c4b_127_20_alg».proof.Proof.Gen.KernelIdeal.Value

noncomputable section

namespace Cert.KernelIdeal.Whole

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The body's arithmetic on whole arrays: the second payload (the last affine map) of the first (everything
    before it), the matrix of 256 columns entering through its left and right halves. -/
def kerF (x0 : Vec F S1000x128 .f32) (x1 : Vec F S128x128 .f32) (x2 : Vec F S128 .f32) (x3 : Vec F S128x256 .f32)
    (x4 : Vec F S128 .f32) (x5 : Vec F S2x128 .f32) (x6 : Vec F S2 .f32) : Vec F S1000x2 .f32 :=
  k0_pay1 (k0_pay2 x0 x2 x4 (View.ld x3 r0_2) (View.ld x3 r0_3) x1) x5 x6

theorem off2 : (![0, 0] : Fin 2 → Nat) = fun _ => 0 := funext fun a => by fin_cases a <;> rfl
theorem off1 : (![0] : Fin 1 → Nat) = fun _ => 0 := funext fun a => by fin_cases a <;> rfl

/-- The staging buffer of the result after the body is that arithmetic of the inputs' staging buffers: the one
    store covers the buffer, and a load of a whole buffer is the buffer. -/
theorem out_eq (x0 : Vec F S1000x128 .f32) (x1 : Vec F S128x128 .f32) (x2 : Vec F S128 .f32) (x3 : Vec F S128x256 .f32)
    (x4 : Vec F S128 .f32) (x5 : Vec F S2x128 .f32) (x6 : Vec F S2 .f32) :
    out0_7 x0 x1 x2 x3 x4 x5 x6 = kerF x0 x1 x2 x3 x4 x5 x6 := by
  unfold out0_7 kerF
  rw [View.canon_unit_zero off2]
  simp only [View.ld_unit_zero (S := S1000x128) off2, View.ld_unit_zero (S := S128) off1,
    View.ld_unit_zero (S := S128x128) off2, View.ld_unit_zero (S := S2x128) off2, View.ld_unit_zero (S := S2) off1]

/-- Every window's block index is 0 on every axis at the one point. -/
theorem idx_zero : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0 :=
  (by decide +kernel : ∀ t : Fin grid0.N, _)

/-- The one block of input 0 is its array. -/
theorem blk0 (c : Dev nD) (t : Fin cfg0.N) : iblk m c 0 t = V m c main_arg0 := by
  funext j
  show V m c main_arg0 (((cfg0.win 0).blk t).view.emb j) = V m c main_arg0 j
  refine congrArg _ ?_
  obtain ⟨e00, e01, -⟩ := idx_zero t
  funext a; apply Fin.ext
  match a with
  | ⟨0, _⟩ => show win0_0.index t (0 : Fin 2) * 1000 + 1 * (j 0).val = (j 0).val; omega
  | ⟨1, _⟩ => show win0_0.index t (1 : Fin 2) * 128 + 1 * (j 1).val = (j 1).val; omega

/-- The one block of input 1 is its array. -/
theorem blk1 (c : Dev nD) (t : Fin cfg0.N) : iblk m c 1 t = V m c main_arg1 := by
  funext j
  show V m c main_arg1 (((cfg0.win 1).blk t).view.emb j) = V m c main_arg1 j
  refine congrArg _ ?_
  obtain ⟨-, -, e10, e11, -⟩ := idx_zero t
  funext a; apply Fin.ext
  match a with
  | ⟨0, _⟩ => show win0_1.index t (0 : Fin 2) * 128 + 1 * (j 0).val = (j 0).val; omega
  | ⟨1, _⟩ => show win0_1.index t (1 : Fin 2) * 128 + 1 * (j 1).val = (j 1).val; omega

/-- The one block of input 2 is its array. -/
theorem blk2 (c : Dev nD) (t : Fin cfg0.N) : iblk m c 2 t = V m c main_arg2 := by
  funext j
  show V m c main_arg2 (((cfg0.win 2).blk t).view.emb j) = V m c main_arg2 j
  refine congrArg _ ?_
  obtain ⟨-, -, -, -, e2, -⟩ := idx_zero t
  funext a; apply Fin.ext
  match a with
  | ⟨0, _⟩ => show win0_2.index t (0 : Fin 1) * 128 + 1 * (j 0).val = (j 0).val; omega

/-- The one block of input 3 is its array. -/
theorem blk3 (c : Dev nD) (t : Fin cfg0.N) : iblk m c 3 t = V m c main_arg3 := by
  funext j
  show V m c main_arg3 (((cfg0.win 3).blk t).view.emb j) = V m c main_arg3 j
  refine congrArg _ ?_
  obtain ⟨-, -, -, -, -, e30, e31, -⟩ := idx_zero t
  funext a; apply Fin.ext
  match a with
  | ⟨0, _⟩ => show win0_3.index t (0 : Fin 2) * 128 + 1 * (j 0).val = (j 0).val; omega
  | ⟨1, _⟩ => show win0_3.index t (1 : Fin 2) * 256 + 1 * (j 1).val = (j 1).val; omega

/-- The one block of input 4 is its array. -/
theorem blk4 (c : Dev nD) (t : Fin cfg0.N) : iblk m c 4 t = V m c main_arg4 := by
  funext j
  show V m c main_arg4 (((cfg0.win 4).blk t).view.emb j) = V m c main_arg4 j
  refine congrArg _ ?_
  obtain ⟨-, -, -, -, -, -, -, e4, -⟩ := idx_zero t
  funext a; apply Fin.ext
  match a with
  | ⟨0, _⟩ => show win0_4.index t (0 : Fin 1) * 128 + 1 * (j 0).val = (j 0).val; omega

/-- The one block of input 5 is its array. -/
theorem blk5 (c : Dev nD) (t : Fin cfg0.N) : iblk m c 5 t = V m c main_arg5 := by
  funext j
  show V m c main_arg5 (((cfg0.win 5).blk t).view.emb j) = V m c main_arg5 j
  refine congrArg _ ?_
  obtain ⟨-, -, -, -, -, -, -, -, e50, e51, -⟩ := idx_zero t
  funext a; apply Fin.ext
  match a with
  | ⟨0, _⟩ => show win0_5.index t (0 : Fin 2) * 2 + 1 * (j 0).val = (j 0).val; omega
  | ⟨1, _⟩ => show win0_5.index t (1 : Fin 2) * 128 + 1 * (j 1).val = (j 1).val; omega

/-- The one block of input 6 is its array. -/
theorem blk6 (c : Dev nD) (t : Fin cfg0.N) : iblk m c 6 t = V m c main_arg6 := by
  funext j
  show V m c main_arg6 (((cfg0.win 6).blk t).view.emb j) = V m c main_arg6 j
  refine congrArg _ ?_
  obtain ⟨-, -, -, -, -, -, -, -, -, -, e6, -⟩ := idx_zero t
  funext a; apply Fin.ext
  match a with
  | ⟨0, _⟩ => show win0_6.index t (0 : Fin 1) * 2 + 1 * (j 0).val = (j 0).val; omega

/-- An index inside the result's one block is that index of the array. -/
theorem emb7 (t : Fin cfg0.N) (j : S1000x2.Idx) : ((cfg0.win 7).blk t).view.emb j = j := by
  obtain ⟨-, -, -, -, -, -, -, -, -, -, -, e70, e71⟩ := idx_zero t
  funext a; apply Fin.ext
  match a with
  | ⟨0, _⟩ => show win0_7.index t (0 : Fin 2) * 1000 + 1 * (j 0).val = (j 0).val; omega
  | ⟨1, _⟩ => show win0_7.index t (1 : Fin 2) * 2 + 1 * (j 1).val = (j 1).val; omega

/-- What the one point writes back is the whole of that arithmetic of the argument arrays. -/
theorem flushed_eq (c : Dev nD) (t : Fin cfg0.N) :
    (dats m 0 c).flushed 7 t = ((cfg0.win 7).blk t).view.read (Elt F)
      (kerF (V m c main_arg0) (V m c main_arg1) (V m c main_arg2) (V m c main_arg3) (V m c main_arg4)
        (V m c main_arg5) (V m c main_arg6)) := by
  rw [Cert.KernelIdeal.Value.flushed7,
    out_eq (iblk m c 0 t) (iblk m c 1 t) (iblk m c 2 t) (iblk m c 3 t) (iblk m c 4 t) (iblk m c 5 t) (iblk m c 6 t),
    blk0 m c t, blk1 m c t, blk2 m c t, blk3 m c t, blk4 m c t, blk5 m c t, blk6 m c t]
  funext j
  show kerF (V m c main_arg0) (V m c main_arg1) (V m c main_arg2) (V m c main_arg3) (V m c main_arg4)
      (V m c main_arg5) (V m c main_arg6) j
    = kerF (V m c main_arg0) (V m c main_arg1) (V m c main_arg2) (V m c main_arg3) (V m c main_arg4)
      (V m c main_arg5) (V m c main_arg6) (((cfg0.win 7).blk t).view.emb j)
  rw [emb7 t j]

/-- An index of the result is in the one block iff each coordinate is in the block's range. -/
theorem mem_blk7 (t : Fin cfg0.N) (i : S1000x2.Idx) :
    i ∈ ((cfg0.win 7).blk t).view.set ↔ ∀ a : Fin 2, win0_7.index t a * S1000x2.size a ≤ (i a).val
      ∧ (i a).val < win0_7.index t a * S1000x2.size a + S1000x2.size a := by
  show i ∈ ((View.whole main_v0).slice (win0_7.rect t)).set ↔ _
  rw [View.set_slice_whole, Rect.mem_set_unit]
  exact Iff.rfl

/-- The one block covers the result. -/
theorem covered (i : S1000x2.Idx) :
    ∃ t : Fin cfg0.N, (cfg0.win 7).flush t = true ∧ i ∈ ((cfg0.win 7).blk t).view.set := by
  refine ⟨t0_0, flush0_7 t0_0, ?_⟩
  rw [mem_blk7]
  obtain ⟨-, -, -, -, -, -, -, -, -, -, -, e70, e71⟩ := idx_zero t0_0
  have h0 : (i 0).val < 1000 := (i 0).isLt
  have h1 : (i 1).val < 2 := (i 1).isLt
  intro a
  match a with
  | ⟨0, _⟩ => show win0_7.index t0_0 (0 : Fin 2) * 1000 ≤ (i 0).val ∧ (i 0).val < win0_7.index t0_0 (0 : Fin 2) * 1000 + 1000; omega
  | ⟨1, _⟩ => show win0_7.index t0_0 (1 : Fin 2) * 2 ≤ (i 1).val ∧ (i 1).val < win0_7.index t0_0 (1 : Fin 2) * 2 + 2; omega

/-- The result array after the run. -/
theorem final (c : Dev nD) : (dats m 0 c).arrAt 7 cfg0.N
    = kerF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) :=
  (dats m 0 c).arrAt_eq_of_cover 7 _ (fun t _ => flushed_eq m c t) covered

/-- The kernel's run: the result array at that arithmetic of the argument arrays, the arguments unchanged. -/
theorem run : θ_run defs (onTc (τ := τ) (main (F := F))) ⟨m, fun _ => 0, ρ⟩ fun r => ∀ c : Dev nD,
      r.2.mem ((c : Thread nD τ).loc main_v0)
        = kerF (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.KernelIdeal.Whole

end
-- ==== Proof.Spec.lean ====
/-
  The two computations as functions on the extended reals.

  A table X of 1000 rows and 128 columns goes through a dense layer with rectifier, H = max(X · Wᵀ + b, 0); on the
  ring 0 → 1 → … → 999 → 0 the neighbour of row l is row l + 1 (row 0 after row 999). A second dense layer takes
  two blocks of 128 columns side by side against a matrix G of 256 columns: g(A | B) = max((A | B) · Gᵀ + c, 0).

  The reference forms g(H∘nb | H) and g(H | H∘nb), halves their sum, rectifies it, puts it beside H, applies g
  again and ends with an affine map to two columns. The kernel splits G into its left and right halves, forms
  P = H · G_leftᵀ and Q = H · G_rightᵀ once, shifts their rows for the neighbour, adds the two rectified
  combinations WITHOUT halving and multiplies by the right half of G scaled by one half instead.
-/
import Mathlib
import Idealize.ShloMosaic.PureOps.Ideal

noncomputable section

namespace Cert.Spec

open Idealize.ShloMosaic

/-- The three float words the programs spell. -/
abbrev zeroW : EReal := Ideal.ofBits .f32 0x00000000#32
abbrev halfW : EReal := Ideal.ofBits .f32 0x3F000000#32
abbrev twoW : EReal := Ideal.ofBits .f32 0x40000000#32

theorem zeroW_eq : zeroW = 0 := by simp [Ideal.ofBits, Ideal.ieee]
theorem halfW_eq : halfW = ((1 / 2 : ℝ) : EReal) := by
  simp [Ideal.ofBits, Ideal.ieee, -EReal.coe_mul]; norm_num
theorem twoW_eq : twoW = ((2 : ℝ) : EReal) := by
  simp [Ideal.ofBits, Ideal.ieee, -EReal.coe_mul]; norm_num

/-- The ring neighbour of a row. -/
def nb (l : Fin 1000) : Fin 1000 := ⟨(l.val + 1) % 1000, Nat.mod_lt _ (by norm_num)⟩

/-- The rectifier. -/
def relu (x : EReal) : EReal := max x zeroW

section
variable (X : Fin 1000 → Fin 128 → EReal) (W : Fin 128 → Fin 128 → EReal) (b : Fin 128 → EReal)
  (G : Fin 128 → Fin 256 → EReal) (c : Fin 128 → EReal) (V : Fin 2 → Fin 128 → EReal) (d : Fin 2 → EReal)

/-- The first layer of a table. -/
def layer1 (T : Fin 1000 → Fin 128 → EReal) (l : Fin 1000) (j : Fin 128) : EReal :=
  relu ((∑ k : Fin 128, T l k * W j k) + b j)

/-- Two blocks side by side. -/
def beside (A B : Fin 1000 → Fin 128 → EReal) (l : Fin 1000) (k : Fin 256) : EReal :=
  if h : k.val < 128 then A l ⟨k.val, h⟩ else B l ⟨k.val - 128, by have := k.isLt; omega⟩

/-- The second layer of a table of 256 columns. -/
def layer2 (T : Fin 1000 → Fin 256 → EReal) (l : Fin 1000) (j : Fin 128) : EReal :=
  relu ((∑ k : Fin 256, T l k * G j k) + c j)

/-- The last affine map. -/
def affine (E : Fin 1000 → Fin 128 → EReal) (l : Fin 1000) (o : Fin 2) : EReal :=
  (∑ k : Fin 128, E l k * V o k) + d o

/-- THE REFERENCE: the rows of X at the neighbours are taken first, then the first layer. -/
def refSpec (l : Fin 1000) (o : Fin 2) : EReal :=
  affine V d
    (layer2 G c
      (beside (layer1 W b X)
        (fun l j => relu (Ideal.div
          (layer2 G c (beside (layer1 W b fun l k => X (nb l) k) (layer1 W b X)) l j
            + layer2 G c (beside (layer1 W b X) (layer1 W b fun l k => X (nb l) k)) l j) twoW))))
    l o

/-- The left and right halves of G. -/
def gLeft (j k : Fin 128) : EReal := G j ⟨k.val, by have := k.isLt; omega⟩
def gRight (j k : Fin 128) : EReal := G j ⟨128 + k.val, by have := k.isLt; omega⟩

/-- A product of a table with the transpose of a square matrix. -/
def prodT (T : Fin 1000 → Fin 128 → EReal) (M : Fin 128 → Fin 128 → EReal) (l : Fin 1000) (j : Fin 128) : EReal :=
  ∑ k : Fin 128, T l k * M j k

/-- THE KERNEL: with H the first layer, P = H · G_leftᵀ, Q = H · G_rightᵀ, the biased copies P + c and Q + c, the
    rows shifted by the ring, the two rectified combinations added, the product with the halved right half. -/
def kerSpec (l : Fin 1000) (o : Fin 2) : EReal :=
  affine V d
    (fun l j => relu ((prodT (layer1 W b X) (gLeft G) l j + c j)
      + prodT
          (fun l j => relu ((prodT (layer1 W b X) (gLeft G) (nb l) j + c j) + prodT (layer1 W b X) (gRight G) l j)
            + relu (prodT (layer1 W b X) (gLeft G) l j + (prodT (layer1 W b X) (gRight G) (nb l) j + c j)))
          (fun j k => gRight G j k * halfW) l j))
    l o

end

end Cert.Spec

end
-- ==== Proof.LibGramDot.lean ====
/-
  A matrix product with the RIGHT factor transposed, read at an entry. For the dimension numbers of `M×K` by `N×K`
  contracting the two last axes (`DotDims.transposedRhs M K N`: what `A · Bᵀ` prints as when the matrix unit consumes the
  transposed operand natively), the sum over the one-axis contraction index of any function of the two operand indices is the
  sum over `k : Fin K` of that function at `(p, k)` and `(c, k)` (`sum_transposedRhs`). Hence, on the extended reals, a
  `tpu.matmul` into the zero accumulator read at `(p, c)` is `∑ k, A (p, k) * B (c, k)` (`matmul_transposedRhs_zero_apply`),
  for every `M`, `K`, `N`; with `B = A` it is the Gram matrix of the rows of `A`.
-/
import Idealize.ShloMosaic.PureOps.Ideal.Laws
import Idealize.ShloMosaic.Lib.ValueIdx

noncomputable section

open scoped BigOperators

namespace Cert.Lib.GramDot

open Idealize.ShloMosaic Idealize.ShloMosaic.ValueIdx

variable {M K N : Nat}

/-- The left operand's index at output `(p, c)` and contraction coordinate `k` is `(p, k)`. -/
theorem lhsIdx_transposedRhs (p : Fin M) (c : Fin N) (k : Fin K) :
    (DotDims.transposedRhs M K N).lhsIdx (ix2 p c) ((contrEquiv1 (DotDims.transposedRhs M K N) K rfl rfl).symm k) = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl (ix2 p c) _).trans hk

/-- The right operand's index at output `(p, c)` and contraction coordinate `k` is `(c, k)`. -/
theorem rhsIdx_transposedRhs (p : Fin M) (c : Fin N) (k : Fin K) :
    (DotDims.transposedRhs M K N).rhsIdx (ix2 p c) ((contrEquiv1 (DotDims.transposedRhs M K N) K rfl rfl).symm k) = ix2 c k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl (ix2 p c) _).trans hk

/-- A sum over the contraction index, of any function of the two operand indices, is the sum over the shared axis. -/
theorem sum_transposedRhs {β : Type*} [AddCommMonoid β]
    (f : (⟨2, ![M, K]⟩ : Shape).Idx → (⟨2, ![N, K]⟩ : Shape).Idx → β) (p : Fin M) (c : Fin N) :
    ∑ q : (DotDims.transposedRhs M K N).contr.Idx,
        f ((DotDims.transposedRhs M K N).lhsIdx (ix2 p c) q) ((DotDims.transposedRhs M K N).rhsIdx (ix2 p c) q)
      = ∑ k : Fin K, f (ix2 p k) (ix2 c k) := by
  rw [← Equiv.sum_comp (contrEquiv1 (DotDims.transposedRhs M K N) K rfl rfl).symm]
  refine Finset.sum_congr rfl fun k _ => ?_
  rw [lhsIdx_transposedRhs, rhsIdx_transposedRhs]

/-- On the extended reals a `tpu.matmul` of `A : M×K` and `B : N×K` contracting the last axes, into the zero accumulator,
    read at `(p, c)`, is `∑ k, A (p, k) * B (c, k)`. -/
theorem matmul_transposedRhs_zero_apply {φ₁ φ₂ : FTy} (prec : Option ContractPrecision)
    (A : FVec Ideal ⟨2, ![M, K]⟩ φ₁) (B : FVec Ideal ⟨2, ![N, K]⟩ φ₂) (p : Fin M) (c : Fin N) :
    FloatOps.matmul (DotDims.transposedRhs M K N) prec A B (constant ⟨2, ![M, N]⟩ .f32 0x00000000#32) (ix2 p c)
      = ∑ k : Fin K, A (ix2 p k) * B (ix2 c k) :=
  (Ideal.matmul_constant_zero_apply (DotDims.transposedRhs M K N) prec A B (ix2 p c)).trans
    (sum_transposedRhs (fun i j => A i * B j) p c)

end Cert.Lib.GramDot

end
-- ==== Proof.LibConcatPair.lean ====
/-
  Two matrices joined into one, read at coordinates. Laid side by side ([a, b₁] and [a, b₂] into [a, b] along the
  columns), the joined matrix reads the left piece at a column below b₁ and the right piece, b₁ columns to the
  left, from column b₁ on; stacked ([a₁, b] on top of [a₂, b] into [a, b] along the rows), it reads the top piece
  at a row below a₁ and the bottom piece, a₁ rows up, from row a₁ on. Each is the library's two-piece lemma
  with the per-axis arithmetic discharged for rank two.
-/
import Idealize.ShloMosaic.Lib.Pipeline.Value
import Idealize.ShloMosaic.Lib.ValueIdx

namespace Cert.Lib.ConcatPair

open Idealize.ShloMosaic Idealize.ShloMosaic.ValueIdx

variable {α : Type}

/-- Side by side, at a column of the left piece. -/
theorem cols_left {a b₁ b₂ b : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b]⟩ 1) (p : Fin a) (k : Fin b₁) (k' : Fin b)
    (hk : k'.val = k.val) :
    concatenate ⟨2, ![a, b]⟩ 1 [⟨⟨2, ![a, b₁]⟩, x₁⟩, ⟨⟨2, ![a, b₂]⟩, x₂⟩] h (ix2 p k') = x₁ (ix2 p k) :=
  concatenate_pair_apply_left (1 : Fin 2) x₁ x₂ h (ix2 p k') rfl (ix2 p k) fun ax => by
    match ax with
    | ⟨0, _⟩ => rfl
    | ⟨1, _⟩ => exact hk.symm

/-- Side by side, at a column of the right piece. -/
theorem cols_right {a b₁ b₂ b : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b]⟩ 1) (p : Fin a) (k : Fin b₂) (k' : Fin b)
    (hk : k'.val = b₁ + k.val) :
    concatenate ⟨2, ![a, b]⟩ 1 [⟨⟨2, ![a, b₁]⟩, x₁⟩, ⟨⟨2, ![a, b₂]⟩, x₂⟩] h (ix2 p k') = x₂ (ix2 p k) :=
  concatenate_pair_apply_right (1 : Fin 2) x₁ x₂ h (ix2 p k') rfl rfl (ix2 p k)
    (fun ax hne => by
      match ax, hne with
      | ⟨0, _⟩, _ => rfl
      | ⟨1, _⟩, hne => exact absurd rfl hne)
    (by show k.val + b₁ = k'.val; omega)

/-- Stacked, at a row of the top piece. -/
theorem rows_top {a₁ a₂ a b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![a, b]⟩ 0) (k : Fin a₁) (k' : Fin a) (c : Fin b)
    (hk : k'.val = k.val) :
    concatenate ⟨2, ![a, b]⟩ 0 [⟨⟨2, ![a₁, b]⟩, x₁⟩, ⟨⟨2, ![a₂, b]⟩, x₂⟩] h (ix2 k' c) = x₁ (ix2 k c) :=
  concatenate_pair_apply_left (0 : Fin 2) x₁ x₂ h (ix2 k' c) rfl (ix2 k c) fun ax => by
    match ax with
    | ⟨0, _⟩ => exact hk.symm
    | ⟨1, _⟩ => rfl

/-- Stacked, at a row of the bottom piece. -/
theorem rows_bottom {a₁ a₂ a b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![a, b]⟩ 0) (k : Fin a₂) (k' : Fin a) (c : Fin b)
    (hk : k'.val = a₁ + k.val) :
    concatenate ⟨2, ![a, b]⟩ 0 [⟨⟨2, ![a₁, b]⟩, x₁⟩, ⟨⟨2, ![a₂, b]⟩, x₂⟩] h (ix2 k' c) = x₂ (ix2 k c) :=
  concatenate_pair_apply_right (0 : Fin 2) x₁ x₂ h (ix2 k' c) rfl rfl (ix2 k c)
    (fun ax hne => by
      match ax, hne with
      | ⟨0, _⟩, hne => exact absurd rfl hne
      | ⟨1, _⟩, _ => rfl)
    (by show k.val + a₁ = k'.val; omega)

end Cert.Lib.ConcatPair
-- ==== Proof.KernelAt.lean ====
/-
  The kernel's arithmetic read at a row and a column.

  Every product in the kernel contracts the last axes of its two factors (a table times the transpose of a matrix),
  into a zero accumulator: at (p, j) it is the sum over k of A(p, k) · B(j, k). A bias vector enters as a row
  repeated over the rows; the rectifier is the maximum with the zero word; the ring shift of the rows is rows 1 … 999
  followed by row 0, which at row l reads row l + 1 (row 0 at the last row). The two halves of the 256-column
  matrix are its columns k and 128 + k. Put together, the result at (l, o) is the specification's kernel formula.
-/
import proofs.«101825_g80925773791738_cont_9to1c4b_127_20_alg».proof.Proof.KernelValue
import proofs.«101825_g80925773791738_cont_9to1c4b_127_20_alg».proof.Proof.Spec
import proofs.«101825_g80925773791738_cont_9to1c4b_127_20_alg».proof.Proof.LibGramDot
import proofs.«101825_g80925773791738_cont_9to1c4b_127_20_alg».proof.Proof.LibConcatPair
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.At

open Idealize.ShloMosaic Idealize.ShloMosaic.ValueIdx Cert.KernelIdeal Cert.KernelIdeal.Gen

/-! ## The body's building blocks, named -/

/-- A table times the transpose of a square matrix, into the zero accumulator. -/
def mmA (A : FVec Ideal S1000x128 .f32) (B : FVec Ideal S128x128 .f32) : FVec Ideal S1000x128 .f32 :=
  matmul dot_S1000x128_S128x128_S1000x128_1_1_0_0_n_n none A B (constant S1000x128 .f32 0x00000000#32)

/-- A bias vector as a row repeated over the 1000 rows. -/
def biasA (v : FVec Ideal S128 .f32) : FVec Ideal S1000x128 .f32 :=
  broadcastTo S1000x128 (shapeCast S1x128 v Facts₀.shapeCasts_S128_S1x128) Facts₀.broadcasts_S1x128_S1000x128

/-- The rectifier. -/
def reluA (Y : FVec Ideal S1000x128 .f32) : FVec Ideal S1000x128 .f32 :=
  maximumf Y (broadcast S1000x128 (Scalar.ofBits .f32 0x00000000#32))

/-- The ring shift: rows 1 … 999, then row 0. -/
def rollA (Y : FVec Ideal S1000x128 .f32) : FVec Ideal S1000x128 .f32 :=
  concatenate S1000x128 0
    [⟨S999x128, extractStridedSlice S999x128 ![1, 0] Y Facts₀.slices_S1000x128_o1_0_S999x128⟩,
     ⟨S1x128, extractStridedSlice S1x128 ![0, 0] Y Facts₀.slices_S1000x128_o0_0_S1x128⟩]
    Facts₀.concatenates_S999x128_S1x128_S1000x128_d0

/-- The first payload is these blocks composed. -/
theorem pay2_eq (v0 : FVec Ideal S1000x128 .f32) (v1 v2 : FVec Ideal S128 .f32) (v3 v4 v5 : FVec Ideal S128x128 .f32) :
    k0_pay2 (F := Ideal) v0 v1 v2 v3 v4 v5
      = reluA (addf (addf (mmA (reluA (addf (mmA v0 v5) (biasA v1))) v3) (biasA v2))
          (mmA (addf
              (reluA (addf (rollA (addf (mmA (reluA (addf (mmA v0 v5) (biasA v1))) v3) (biasA v2)))
                (mmA (reluA (addf (mmA v0 v5) (biasA v1))) v4)))
              (reluA (addf (mmA (reluA (addf (mmA v0 v5) (biasA v1))) v3)
                (rollA (addf (mmA (reluA (addf (mmA v0 v5) (biasA v1))) v4) (biasA v2))))))
            (mulf v4 (broadcast S128x128 (Scalar.ofBits .f32 0x3F000000#32))))) := rfl

/-! ## Each block at an index -/

theorem mmA_apply (A : FVec Ideal S1000x128 .f32) (B : FVec Ideal S128x128 .f32) (p : Fin 1000) (j : Fin 128) :
    mmA A B (ix2 p j) = ∑ k : Fin 128, A (ix2 p k) * B (ix2 j k) :=
  Cert.Lib.GramDot.matmul_transposedRhs_zero_apply (M := 1000) (K := 128) (N := 128) none A B p j

theorem biasA_apply (v : FVec Ideal S128 .f32) (p : Fin 1000) (j : Fin 128) : biasA v (ix2 p j) = v (ix1 j) :=
  (broadcastTo_1b_ab_apply _ Facts₀.broadcasts_S1x128_S1000x128 p j).trans (shapeCast_a_1a_apply v Facts₀.shapeCasts_S128_S1x128 0 j)

theorem reluA_apply (Y : FVec Ideal S1000x128 .f32) (i : S1000x128.Idx) : reluA Y i = Cert.Spec.relu (Y i) := rfl

theorem nb_lt (l : Fin 1000) (h : l.val < 999) : (Cert.Spec.nb l).val = l.val + 1 := by
  show (l.val + 1) % 1000 = l.val + 1
  omega

theorem nb_last (l : Fin 1000) (h : ¬ l.val < 999) : (Cert.Spec.nb l).val = 0 := by
  have := l.isLt
  show (l.val + 1) % 1000 = 0
  omega

theorem rollA_apply (Y : FVec Ideal S1000x128 .f32) (l : Fin 1000) (j : Fin 128) :
    rollA Y (ix2 l j) = Y (ix2 (Cert.Spec.nb l) j) := by
  unfold rollA
  by_cases h : l.val < 999
  · refine (Cert.Lib.ConcatPair.rows_top _ _ Facts₀.concatenates_S999x128_S1x128_S1000x128_d0 (⟨l.val, h⟩ : Fin 999) l j rfl).trans ?_
    exact slice2_axis0_apply 1 Y Facts₀.slices_S1000x128_o1_0_S999x128 (⟨l.val, h⟩ : Fin 999) j (Cert.Spec.nb l)
      (by rw [nb_lt l h]; show l.val + 1 = 1 + l.val; omega)
  · have hl := l.isLt
    refine (Cert.Lib.ConcatPair.rows_bottom _ _ Facts₀.concatenates_S999x128_S1x128_S1000x128_d0 (0 : Fin 1) l j
      (by show l.val = 999 + 0; omega)).trans ?_
    exact slice2_axis0_apply 0 Y Facts₀.slices_S1000x128_o0_0_S1x128 (0 : Fin 1) j (Cert.Spec.nb l)
      (by rw [nb_last l h]; rfl)

/-- The left half of the 256-column matrix: the rectangle's index (j, k) is the matrix's (j, k). -/
theorem left_idx (j k : Fin 128) :
    r0_2.idx (ix2 j k) = ix2 j (⟨k.val, by have := k.isLt; omega⟩ : Fin 256) := by
  funext a; apply Fin.ext
  match a with
  | ⟨0, _⟩ => show 0 + 1 * j.val = j.val; omega
  | ⟨1, _⟩ => show 0 + 1 * k.val = k.val; omega

/-- The right half: the rectangle's index (j, k) is the matrix's (j, 128 + k). -/
theorem right_idx (j k : Fin 128) :
    r0_3.idx (ix2 j k) = ix2 j (⟨128 + k.val, by have := k.isLt; omega⟩ : Fin 256) := by
  funext a; apply Fin.ext
  match a with
  | ⟨0, _⟩ => show 0 + 1 * j.val = j.val; omega
  | ⟨1, _⟩ => show 128 + 1 * k.val = 128 + k.val; omega

/-- The second payload (the last affine map) at an index. -/
theorem pay1_apply (e : FVec Ideal S1000x128 .f32) (v : FVec Ideal S2x128 .f32) (d : FVec Ideal S2 .f32)
    (l : Fin 1000) (o : Fin 2) :
    k0_pay1 (F := Ideal) e v d (ix2 l o) = (∑ k : Fin 128, e (ix2 l k) * v (ix2 o k)) + d (ix1 o) := by
  show (matmul dot_S1000x128_S2x128_S1000x2_1_1_0_0_n_n none e v (constant S1000x2 .f32 0x00000000#32)) (ix2 l o)
      + (broadcastTo S1000x2 (shapeCast S1x2 d Facts₀.shapeCasts_S2_S1x2) Facts₀.broadcasts_S1x2_S1000x2) (ix2 l o) = _
  rw [show (matmul dot_S1000x128_S2x128_S1000x2_1_1_0_0_n_n none e v (constant S1000x2 .f32 0x00000000#32)) (ix2 l o)
        = ∑ k : Fin 128, e (ix2 l k) * v (ix2 o k) from
      Cert.Lib.GramDot.matmul_transposedRhs_zero_apply (M := 1000) (K := 128) (N := 2) none e v l o,
    show (broadcastTo S1000x2 (shapeCast S1x2 d Facts₀.shapeCasts_S2_S1x2) Facts₀.broadcasts_S1x2_S1000x2) (ix2 l o) = d (ix1 o) from
      (broadcastTo_1b_ab_apply _ Facts₀.broadcasts_S1x2_S1000x2 l o).trans (shapeCast_a_1a_apply d Facts₀.shapeCasts_S2_S1x2 0 o)]

/-! ## The whole -/

/-- THE KERNEL'S RESULT AT (l, o) is the specification's kernel formula of the argument arrays read at
    coordinates. -/
theorem kerF_apply (x0 : FVec Ideal S1000x128 .f32) (x1 : FVec Ideal S128x128 .f32) (x2 : FVec Ideal S128 .f32)
    (x3 : FVec Ideal S128x256 .f32) (x4 : FVec Ideal S128 .f32) (x5 : FVec Ideal S2x128 .f32) (x6 : FVec Ideal S2 .f32)
    (l : Fin 1000) (o : Fin 2) :
    Cert.KernelIdeal.Whole.kerF (F := Ideal) x0 x1 x2 x3 x4 x5 x6 (ix2 l o)
      = Cert.Spec.kerSpec (fun l k => x0 (ix2 l k)) (fun j k => x1 (ix2 j k)) (fun j => x2 (ix1 j))
          (fun j k => x3 (ix2 j k)) (fun j => x4 (ix1 j)) (fun o k => x5 (ix2 o k)) (fun o => x6 (ix1 o)) l o := by
  unfold Cert.KernelIdeal.Whole.kerF
  rw [pay1_apply, pay2_eq]
  simp only [reluA_apply, addf_apply, mmA_apply, biasA_apply, rollA_apply, mulf_apply, broadcast_apply,
    View.ld, left_idx, right_idx]
  rfl

end Cert.KernelIdeal.At

end
-- ==== Proof.Algebra.lean ====
/-
  The kernel's formula and the reference's are one function on the extended reals.

  Three facts join them, none of which needs a finite input. A sum over the 256 columns of two blocks side by
  side against the matrix G is the sum over the left block against G's left half plus the sum over the right block
  against its right half. Addition on the extended reals is commutative and associative, so the bias may be added
  before or after the second half-sum. And for F ≥ 0 the rectified half of F, times w, is F times (w times one half):
  dividing by 2 is multiplying by 1/2 on every extended real, F · ½ is again ≥ 0 so the rectifier leaves it, and
  multiplication is commutative and associative.
-/
import proofs.«101825_g80925773791738_cont_9to1c4b_127_20_alg».proof.Proof.Spec

noncomputable section

namespace Cert.Spec

open Idealize.ShloMosaic

theorem relu_nonneg (x : EReal) : 0 ≤ relu x := by
  unfold relu; rw [zeroW_eq]; exact le_max_right _ _

theorem relu_of_nonneg {x : EReal} (h : 0 ≤ x) : relu x = x := by
  unfold relu; rw [zeroW_eq]; exact max_eq_left h

theorem halfW_nonneg : 0 ≤ halfW := by
  rw [halfW_eq]; exact EReal.coe_nonneg.mpr (by norm_num)

/-- Half of a nonnegative F, rectified, times w, is F times (w · ½). -/
theorem half_mul {f w : EReal} (hf : 0 ≤ f) : relu (Ideal.div f twoW) * w = f * (w * halfW) := by
  rw [twoW_eq, Ideal.div_coe (by norm_num : (2 : ℝ) ≠ 0), ← halfW_eq,
    relu_of_nonneg (mul_nonneg hf halfW_nonneg), mul_assoc, mul_comm halfW w]

section
variable (X : Fin 1000 → Fin 128 → EReal) (W : Fin 128 → Fin 128 → EReal) (b : Fin 128 → EReal)
  (G : Fin 128 → Fin 256 → EReal) (c : Fin 128 → EReal) (V : Fin 2 → Fin 128 → EReal) (d : Fin 2 → EReal)

/-- A sum over the columns of two blocks side by side splits into the two half-sums. -/
theorem sum_beside (A B : Fin 1000 → Fin 128 → EReal) (l : Fin 1000) (j : Fin 128) :
    ∑ k : Fin 256, beside A B l k * G j k = prodT A (gLeft G) l j + prodT B (gRight G) l j := by
  have h := Fin.sum_univ_add (M := EReal) (a := 128) (b := 128) (fun k : Fin (128 + 128) => beside A B l k * G j k)
  refine h.trans (congrArg₂ (fun u v : EReal => u + v) (Finset.sum_congr rfl fun k _ => ?_)
    (Finset.sum_congr rfl fun k _ => ?_))
  · have hk : (Fin.castAdd 128 k : Fin (128 + 128)).val < 128 := k.isLt
    show beside A B l (Fin.castAdd 128 k) * G j (Fin.castAdd 128 k) = A l k * gLeft G j k
    unfold beside
    rw [dif_pos hk]
    rfl
  · have hk : ¬ (Fin.natAdd 128 k : Fin (128 + 128)).val < 128 := by
      show ¬ 128 + k.val < 128
      omega
    show beside A B l (Fin.natAdd 128 k) * G j (Fin.natAdd 128 k) = B l k * gRight G j k
    unfold beside
    rw [dif_neg hk]
    have e : (⟨(Fin.natAdd 128 k : Fin (128 + 128)).val - 128, by have := k.isLt; show 128 + k.val - 128 < 128; omega⟩ : Fin 128) = k :=
      Fin.ext (by show 128 + k.val - 128 = k.val; omega)
    rw [e]
    rfl

/-- The second layer on two blocks side by side, through the two half-products. -/
theorem layer2_beside (A B : Fin 1000 → Fin 128 → EReal) (l : Fin 1000) (j : Fin 128) :
    layer2 G c (beside A B) l j = relu ((prodT A (gLeft G) l j + prodT B (gRight G) l j) + c j) := by
  unfold layer2
  rw [sum_beside]

/-- THE TWO FORMULAS AGREE at every row and column, for all extended-real arguments. -/
theorem kerSpec_eq_refSpec (l : Fin 1000) (o : Fin 2) :
    kerSpec X W b G c V d l o = refSpec X W b G c V d l o := by
  unfold kerSpec refSpec
  refine congrArg (fun E => affine V d E l o) ?_
  funext l j
  rw [layer2_beside]
  -- the taken table's first layer is the first layer at the neighbour row
  have hn : ∀ (M : Fin 128 → Fin 128 → EReal) (l : Fin 1000) (j : Fin 128),
      prodT (layer1 W b fun l k => X (nb l) k) M l j = prodT (layer1 W b X) M (nb l) j := fun _ _ _ => rfl
  have hsum : prodT (fun l j => relu (Ideal.div
        (layer2 G c (beside (layer1 W b fun l k => X (nb l) k) (layer1 W b X)) l j
          + layer2 G c (beside (layer1 W b X) (layer1 W b fun l k => X (nb l) k)) l j) twoW)) (gRight G) l j
      = prodT (fun l j => relu ((prodT (layer1 W b X) (gLeft G) (nb l) j + c j) + prodT (layer1 W b X) (gRight G) l j)
            + relu (prodT (layer1 W b X) (gLeft G) l j + (prodT (layer1 W b X) (gRight G) (nb l) j + c j)))
          (fun j k => gRight G j k * halfW) l j := by
    unfold prodT
    refine Finset.sum_congr rfl fun k _ => ?_
    show relu (Ideal.div (layer2 G c (beside (layer1 W b fun l k => X (nb l) k) (layer1 W b X)) l k
          + layer2 G c (beside (layer1 W b X) (layer1 W b fun l k => X (nb l) k)) l k) twoW) * gRight G j k = _
    rw [layer2_beside, layer2_beside, half_mul (add_nonneg (relu_nonneg _) (relu_nonneg _))]
    show (relu ((prodT (layer1 W b fun l k => X (nb l) k) (gLeft G) l k + prodT (layer1 W b X) (gRight G) l k) + c k)
        + relu ((prodT (layer1 W b X) (gLeft G) l k + prodT (layer1 W b fun l k => X (nb l) k) (gRight G) l k) + c k))
        * (gRight G j k * halfW) = _
    rw [hn, hn, add_right_comm (prodT (layer1 W b X) (gLeft G) (nb l) k) _ (c k), add_assoc (prodT (layer1 W b X) (gLeft G) l k) _ (c k)]
    rfl
  rw [hsum, add_right_comm]

end

end Cert.Spec

end
-- ==== Proof.RefOps.lean ====
/-
  The reference program as one straight line of host operations.

  The program's functions (the floored remainder, the take of rows, the rectifier, and the two selects they call)
  are each a short line over the buffers one call names; @main is its own operations with those lines in place of
  the calls. The line is cut into twelve stretches, one per stage of the computation: the neighbours' row numbers;
  the first layer on the neighbours' rows and on the rows themselves; the second layer on the two side by side;
  the same three with the two blocks exchanged; the halved sum; the first layer on the table itself; the two side
  by side; the second layer once more; the last affine map.
-/
import proofs.«101825_g80925773791738_cont_9to1c4b_127_20_alg».proof.ReferenceIdeal
import Idealize.ShloMosaic.Lib.StableHlo.Run

noncomputable section

namespace Cert.ReferenceIdeal.Hand

open Idealize.ShloMosaic Idealize.ShloMosaic.StableHlo Cert.ReferenceIdeal

variable {F : FTy → Type} [FloatOps F] [Facts]
open Facts₀ Facts

/-! ## The functions' lines -/

/-- A select of scalars. -/
def whereOps (c : TRef sig ⟨S_, .i1⟩) (a b : TRef sig ⟨S_, .i32⟩) (φ : fn_where.Bufs) : List (HloOp τ sig (Elt F)) :=
  [ TRef.ternary c a b φ.v0 select ]

/-- A select of vectors of 1000 words. -/
def where0Ops (c : TRef sig ⟨S1000, .i1⟩) (a b : TRef sig ⟨S1000, .i32⟩) (φ : fn_where_0.Bufs) :
    List (HloOp τ sig (Elt F)) :=
  [ TRef.ternary c a b φ.v0 select ]

/-- The floored remainder: twenty-two operations. -/
def remOps (arg0 : TRef sig ⟨S1000, .i32⟩) (arg1 : TRef sig ⟨S_, .i32⟩) (φ : fn_remainder.Bufs) :
    List (HloOp τ sig (Elt F)) :=
  [ TRef.unary arg1 φ.v0 id,
    TRef.nullary φ.c (constantI S_ 32 0#32),
    TRef.binary φ.v0 φ.c φ.v1 (cmpi .eq),
    TRef.nullary φ.c_0 (constantI S_ 32 1#32) ]
  ++ whereOps φ.v1 φ.c_0 φ.v0 φ.call0 ++
  [ TRef.unary φ.call0.v0 φ.v3 (broadcastInDim S1000 ![] bcast_S_S1000),
    TRef.binary arg0 φ.v3 φ.v4 Host.remsi,
    TRef.nullary φ.c_1 (constantI S_ 32 0#32),
    TRef.unary φ.c_1 φ.v5 (broadcastInDim S1000 ![] bcast_S_S1000),
    TRef.binary φ.v4 φ.v5 φ.v6 (cmpi .ne),
    TRef.nullary φ.c_2 (constantI S_ 32 0#32),
    TRef.unary φ.c_2 φ.v7 (broadcastInDim S1000 ![] bcast_S_S1000),
    TRef.binary φ.v4 φ.v7 φ.v8 (cmpi .slt),
    TRef.nullary φ.c_3 (constantI S_ 32 0#32),
    TRef.binary φ.call0.v0 φ.c_3 φ.v9 (cmpi .slt),
    TRef.unary φ.v9 φ.v10 (broadcastInDim S1000 ![] bcast_S_S1000),
    TRef.binary φ.v8 φ.v10 φ.v11 (cmpi .ne),
    TRef.binary φ.v11 φ.v6 φ.v12 andi,
    TRef.unary φ.call0.v0 φ.v13 (broadcastInDim S1000 ![] bcast_S_S1000),
    TRef.binary φ.v4 φ.v13 φ.v14 addi,
    TRef.ternary φ.v12 φ.v14 φ.v4 φ.v15 select ]

/-- The take of rows: twenty-three operations. -/
def takeOps (arg0 : TRef sig ⟨S1000x128, .f32⟩) (arg1 : TRef sig ⟨S1000, .i32⟩) (φ : fn_take.Bufs) :
    List (HloOp τ sig (Elt F)) :=
  [ TRef.nullary φ.c (constantI S_ 32 0#32),
    TRef.unary φ.c φ.v0 (broadcastInDim S1000 ![] bcast_S_S1000),
    TRef.binary arg1 φ.v0 φ.v1 (cmpi .slt),
    TRef.nullary φ.c_0 (constantI S_ 32 1000#32),
    TRef.unary φ.c_0 φ.v2 (broadcastInDim S1000 ![] bcast_S_S1000),
    TRef.binary arg1 φ.v2 φ.v3 addi ]
  ++ where0Ops φ.v1 φ.v3 arg1 φ.call0 ++
  [ TRef.unary φ.call0.v0 φ.v5 (broadcastInDim S1000x1 ![0] bcast_S1000_S1000x1_0),
    TRef.nullary φ.c_1 (constantI S1 32 999#32),
    TRef.nullary φ.c_2 (constantI S_ 32 0#32),
    TRef.unary φ.c_2 φ.v6 (broadcastInDim S1000x1 ![] bcast_S_S1000x1),
    TRef.binary φ.v5 φ.v6 φ.v7 (cmpi .sge),
    TRef.unary φ.c_1 φ.v8 (broadcastInDim S1x1 ![1] bcast_S1_S1x1_1),
    TRef.unary φ.v8 φ.v9 (broadcastInDim S1000x1 ![0, 1] bcast_S1x1_S1000x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S1000x1_S1000_d1 h_S_),
    TRef.binary arg0 φ.v5 φ.v13 (fun x i => Host.gather gather_S1000x128_S1000x1_S1000x128_1_0_n_n_0_1_1128 x i),
    TRef.unary φ.v12 φ.v14 (broadcastInDim S1000x128 ![0] bcast_S1000_S1000x128_0),
    TRef.nullary φ.cst (constant S_ .f32 0x7FC00000#32),
    TRef.unary φ.cst φ.v15 (broadcastInDim S1000x128 ![] bcast_S_S1000x128),
    TRef.ternary φ.v14 φ.v13 φ.v15 φ.v16 select ]

/-- The rectifier: three operations. -/
def reluOps (arg0 : TRef sig ⟨S1000x128, .f32⟩) (φ : fn_relu.Bufs) : List (HloOp τ sig (Elt F)) :=
  [ TRef.nullary φ.cst (constant S_ .f32 0x00000000#32),
    TRef.unary φ.cst φ.v0 (broadcastInDim S1000x128 ![] bcast_S_S1000x128),
    TRef.binary arg0 φ.v0 φ.v1 maximumf ]

/-! ## @main's stretches -/

/-- The neighbours' row numbers (into main_v3; the rows' own numbers stay in main_v0). -/
def ops1 : List (HloOp τ sig (Elt F)) :=
  [ nullary main_v0 (iotaInDim S1000 32 0),
    nullary main_c (constantI S_ 32 1#32),
    unary main_c main_v1 (broadcastInDim S1000 ![] bcast_S_S1000),
    binary main_v0 main_v1 main_v2 addi,
    nullary main_c_0 (constantI S_ 32 1000#32) ]
  ++ remOps (.of main_v2) (.of main_c_0) main_call0

/-- The first layer on the neighbours' rows (into main_v10). -/
def ops2 : List (HloOp τ sig (Elt F)) :=
  takeOps (.of main_arg0) (.of main_v3) main_call1 ++
  [ unary main_arg1 main_v5 (transpose S128x128 [1, 0] · transposes_S128x128_S128x128_1_0),
    binary main_v4 main_v5 main_v6 (fun l r => Host.dotGeneral dot_S1000x128_S128x128_S1000x128_1_0_0_1_n_n none l r),
    unary main_arg2 main_v7 (broadcastInDim S1x128 ![1] bcast_S128_S1x128_1),
    unary main_v7 main_v8 (broadcastInDim S1000x128 ![0, 1] bcast_S1x128_S1000x128_0_1),
    binary main_v6 main_v8 main_v9 addf ]
  ++ reluOps (.of main_v9) main_call2

/-- The first layer on the rows themselves (into main_v17). -/
def ops3 : List (HloOp τ sig (Elt F)) :=
  takeOps (.of main_arg0) (.of main_v0) main_call3 ++
  [ unary main_arg1 main_v12 (transpose S128x128 [1, 0] · transposes_S128x128_S128x128_1_0),
    binary main_v11 main_v12 main_v13 (fun l r => Host.dotGeneral dot_S1000x128_S128x128_S1000x128_1_0_0_1_n_n none l r),
    unary main_arg2 main_v14 (broadcastInDim S1x128 ![1] bcast_S128_S1x128_1),
    unary main_v14 main_v15 (broadcastInDim S1000x128 ![0, 1] bcast_S1x128_S1000x128_0_1),
    binary main_v13 main_v15 main_v16 addf ]
  ++ reluOps (.of main_v16) main_call4

/-- The second layer on neighbours beside rows (into main_v24). -/
def ops4 : List (HloOp τ sig (Elt F)) :=
  [ binary main_v10 main_v17 main_v18 (fun a b => concatenate S1000x256 1 [⟨S1000x128, a⟩, ⟨S1000x128, b⟩] concatenates_S1000x128_S1000x128_S1000x256_d1),
    unary main_arg3 main_v19 (transpose S256x128 [1, 0] · transposes_S128x256_S256x128_1_0),
    binary main_v18 main_v19 main_v20 (fun l r => Host.dotGeneral dot_S1000x256_S256x128_S1000x128_1_0_0_1_n_n none l r),
    unary main_arg4 main_v21 (broadcastInDim S1x128 ![1] bcast_S128_S1x128_1),
    unary main_v21 main_v22 (broadcastInDim S1000x128 ![0, 1] bcast_S1x128_S1000x128_0_1),
    binary main_v20 main_v22 main_v23 addf ]
  ++ reluOps (.of main_v23) main_call5

/-- The first layer on the rows themselves, again (into main_v31). -/
def ops5 : List (HloOp τ sig (Elt F)) :=
  takeOps (.of main_arg0) (.of main_v0) main_call6 ++
  [ unary main_arg1 main_v26 (transpose S128x128 [1, 0] · transposes_S128x128_S128x128_1_0),
    binary main_v25 main_v26 main_v27 (fun l r => Host.dotGeneral dot_S1000x128_S128x128_S1000x128_1_0_0_1_n_n none l r),
    unary main_arg2 main_v28 (broadcastInDim S1x128 ![1] bcast_S128_S1x128_1),
    unary main_v28 main_v29 (broadcastInDim S1000x128 ![0, 1] bcast_S1x128_S1000x128_0_1),
    binary main_v27 main_v29 main_v30 addf ]
  ++ reluOps (.of main_v30) main_call7

/-- The first layer on the neighbours' rows, again (into main_v38). -/
def ops6 : List (HloOp τ sig (Elt F)) :=
  takeOps (.of main_arg0) (.of main_v3) main_call8 ++
  [ unary main_arg1 main_v33 (transpose S128x128 [1, 0] · transposes_S128x128_S128x128_1_0),
    binary main_v32 main_v33 main_v34 (fun l r => Host.dotGeneral dot_S1000x128_S128x128_S1000x128_1_0_0_1_n_n none l r),
    unary main_arg2 main_v35 (broadcastInDim S1x128 ![1] bcast_S128_S1x128_1),
    unary main_v35 main_v36 (broadcastInDim S1000x128 ![0, 1] bcast_S1x128_S1000x128_0_1),
    binary main_v34 main_v36 main_v37 addf ]
  ++ reluOps (.of main_v37) main_call9

/-- The second layer on rows beside neighbours (into main_v45). -/
def ops7 : List (HloOp τ sig (Elt F)) :=
  [ binary main_v31 main_v38 main_v39 (fun a b => concatenate S1000x256 1 [⟨S1000x128, a⟩, ⟨S1000x128, b⟩] concatenates_S1000x128_S1000x128_S1000x256_d1),
    unary main_arg3 main_v40 (transpose S256x128 [1, 0] · transposes_S128x256_S256x128_1_0),
    binary main_v39 main_v40 main_v41 (fun l r => Host.dotGeneral dot_S1000x256_S256x128_S1000x128_1_0_0_1_n_n none l r),
    unary main_arg4 main_v42 (broadcastInDim S1x128 ![1] bcast_S128_S1x128_1),
    unary main_v42 main_v43 (broadcastInDim S1000x128 ![0, 1] bcast_S1x128_S1000x128_0_1),
    binary main_v41 main_v43 main_v44 addf ]
  ++ reluOps (.of main_v44) main_call10

/-- Half the sum of the two, rectified (into main_v49). -/
def ops8 : List (HloOp τ sig (Elt F)) :=
  [ binary main_v24 main_v45 main_v46 addf,
    nullary main_cst (constant S_ .f32 0x40000000#32),
    unary main_cst main_v47 (broadcastInDim S1000x128 ![] bcast_S_S1000x128),
    binary main_v46 main_v47 main_v48 Host.divf ]
  ++ reluOps (.of main_v48) main_call11

/-- The first layer on the table itself (into main_v55). -/
def ops9 : List (HloOp τ sig (Elt F)) :=
  [ unary main_arg1 main_v50 (transpose S128x128 [1, 0] · transposes_S128x128_S128x128_1_0),
    binary main_arg0 main_v50 main_v51 (fun l r => Host.dotGeneral dot_S1000x128_S128x128_S1000x128_1_0_0_1_n_n none l r),
    unary main_arg2 main_v52 (broadcastInDim S1x128 ![1] bcast_S128_S1x128_1),
    unary main_v52 main_v53 (broadcastInDim S1000x128 ![0, 1] bcast_S1x128_S1000x128_0_1),
    binary main_v51 main_v53 main_v54 addf ]
  ++ reluOps (.of main_v54) main_call12

/-- That beside the halved sum (into main_v56). -/
def ops10 : List (HloOp τ sig (Elt F)) :=
  [ binary main_v55 main_v49 main_v56 (fun a b => concatenate S1000x256 1 [⟨S1000x128, a⟩, ⟨S1000x128, b⟩] concatenates_S1000x128_S1000x128_S1000x256_d1) ]

/-- The second layer on it (into main_v62). -/
def ops11 : List (HloOp τ sig (Elt F)) :=
  [ unary main_arg3 main_v57 (transpose S256x128 [1, 0] · transposes_S128x256_S256x128_1_0),
    binary main_v56 main_v57 main_v58 (fun l r => Host.dotGeneral dot_S1000x256_S256x128_S1000x128_1_0_0_1_n_n none l r),
    unary main_arg4 main_v59 (broadcastInDim S1x128 ![1] bcast_S128_S1x128_1),
    unary main_v59 main_v60 (broadcastInDim S1000x128 ![0, 1] bcast_S1x128_S1000x128_0_1),
    binary main_v58 main_v60 main_v61 addf ]
  ++ reluOps (.of main_v61) main_call13

/-- The last affine map (into main_v67). -/
def ops12 : List (HloOp τ sig (Elt F)) :=
  [ unary main_arg5 main_v63 (transpose S128x2 [1, 0] · transposes_S2x128_S128x2_1_0),
    binary main_v62 main_v63 main_v64 (fun l r => Host.dotGeneral dot_S1000x128_S128x2_S1000x2_1_0_0_1_n_n none l r),
    unary main_arg6 main_v65 (broadcastInDim S1x2 ![1] bcast_S2_S1x2_1),
    unary main_v65 main_v66 (broadcastInDim S1000x2 ![0, 1] bcast_S1x2_S1000x2_0_1),
    binary main_v64 main_v66 main_v67 addf ]

/-- @main's first sixty statements. -/
def opsA : List (HloOp τ sig (Elt F)) :=
  ops1 ++ (ops2 ++ (ops3 ++ (ops4 ++ (ops5 ++ (ops6 ++ (ops7 ++ (ops8 ++ (ops9 ++ ops10))))))))

/-- @main's last twelve statements. -/
def opsB : List (HloOp τ sig (Elt F)) := ops11 ++ ops12

/-- @main. -/
def ops : List (HloOp τ sig (Elt F)) := opsA ++ opsB

end Cert.ReferenceIdeal.Hand

end
-- ==== Proof.RefRun.lean ====
/-
  The reference program runs to the fold of its line of host operations.

  Each printed function's body is its line of operations (the selects one operation, the rectifier three,
  the floored remainder and the take theirs with the select they call in place), and @main — its first sixty
  statements, then its last twelve — is the twelve stretches appended: on both sides one chain of steps, equal
  by unfolding. Every operation of the line is built from a value, or from one, two or three operands: it touches
  TensorCore references only and determines its result. So from any memory with zero counters every weakly fair
  execution of @main terminates with each TensorCore buffer at the fold of the operations' results over its
  launch contents.
-/
import proofs.«101825_g80925773791738_cont_9to1c4b_127_20_alg».proof.Proof.RefOps

noncomputable section

namespace Cert.ReferenceIdeal.Hand

open Idealize.ShloMosaic Idealize.ShloMosaic.StableHlo Idealize.SL.Sem Cert.ReferenceIdeal

variable {F : FTy → Type} [FloatOps F] [Facts]
open Facts₀ Facts

/-! ## Each printed function is its line -/

/-- The scalar select's body is its one operation. -/
theorem where_eq (c : TRef sig ⟨S_, .i1⟩) (a b : TRef sig ⟨S_, .i32⟩) (φ : fn_where.Bufs) :
    fn_where.body (F := F) c a b φ = seq (whereOps c a b φ) := rfl

/-- The vector select's body is its one operation. -/
theorem where0_eq (c : TRef sig ⟨S1000, .i1⟩) (a b : TRef sig ⟨S1000, .i32⟩) (φ : fn_where_0.Bufs) :
    fn_where_0.body (F := F) c a b φ = seq (where0Ops c a b φ) := rfl

/-- The rectifier's body is its three operations. -/
theorem relu_eq (a : TRef sig ⟨S1000x128, .f32⟩) (φ : fn_relu.Bufs) :
    fn_relu.body (F := F) a φ = seq (reluOps a φ) := rfl

/-- The floored remainder's body is its line (the select it calls in place). -/
theorem rem_eq (a : TRef sig ⟨S1000, .i32⟩) (n : TRef sig ⟨S_, .i32⟩) (φ : fn_remainder.Bufs) :
    fn_remainder.body (F := F) a n φ = seq (remOps a n φ) := rfl

/-- The take's body is its line (the select it calls in place). -/
theorem take_eq (x : TRef sig ⟨S1000x128, .f32⟩) (t : TRef sig ⟨S1000, .i32⟩) (φ : fn_take.Bufs) :
    fn_take.body (F := F) x t φ = seq (takeOps x t φ) := rfl

/-! ## @main is the line -/

-- sixty statements, thirteen of them calls: both sides unfold to one chain of steps
set_option maxRecDepth 8192 in
/-- The first sixty statements are the first ten stretches. -/
theorem part0_eq (d : Dev nD) : main_part0 (F := F) d = seq opsA := rfl

/-- The last twelve statements are the last two stretches. -/
theorem part1_eq (d : Dev nD) : main_part1 (F := F) d = seq opsB := rfl

/-- @main is the whole line: its two windows in order are the two halves appended. -/
theorem main_eq (d : Dev nD) : main (F := F) d = seq ops := by
  show (main_part0 d >>= fun _ => main_part1 d) = seq (opsA ++ opsB)
  rw [part0_eq, part1_eq, seq_append]

/-! ## What the run asks of the operations -/

/-- An operation touches TensorCore references only, and determines its results. -/
def LineOk (op : HloOp τ sig (Elt F)) : Prop := op.bufs ⊆ tcRefs τ sig ∧ op.fresh = ∅

section Builders

variable (x a b c y : Ref sig .tc)

theorem lineOk_nullary (v : y.ty.Contents (Elt F)) (hy) : LineOk (nullary (τ := τ) y v hy) :=
  ⟨nullary_bufs_sub .., rfl⟩
theorem lineOk_unary (f : x.ty.Contents (Elt F) → y.ty.Contents (Elt F)) (hx hy) : LineOk (unary (τ := τ) x y f hx hy) :=
  ⟨unary_bufs_sub .., rfl⟩
theorem lineOk_binary (f : a.ty.Contents (Elt F) → b.ty.Contents (Elt F) → y.ty.Contents (Elt F)) (ha hb hy) :
    LineOk (binary (τ := τ) a b y f ha hb hy) :=
  ⟨binary_bufs_sub .., rfl⟩
theorem lineOk_ternary (f : c.ty.Contents (Elt F) → a.ty.Contents (Elt F) → b.ty.Contents (Elt F) → y.ty.Contents (Elt F))
    (hc ha hb hy) : LineOk (ternary (τ := τ) c a b y f hc ha hb hy) :=
  ⟨ternary_bufs_sub .., rfl⟩

end Builders

theorem whereOps_lineOk (c : TRef sig ⟨S_, .i1⟩) (a b : TRef sig ⟨S_, .i32⟩) (φ : fn_where.Bufs) :
    (whereOps (F := F) c a b φ).Forall LineOk := lineOk_ternary ..

theorem where0Ops_lineOk (c : TRef sig ⟨S1000, .i1⟩) (a b : TRef sig ⟨S1000, .i32⟩) (φ : fn_where_0.Bufs) :
    (where0Ops (F := F) c a b φ).Forall LineOk := lineOk_ternary ..

theorem reluOps_lineOk (a : TRef sig ⟨S1000x128, .f32⟩) (φ : fn_relu.Bufs) : (reluOps (F := F) a φ).Forall LineOk :=
  ⟨lineOk_nullary .., lineOk_unary .., lineOk_binary ..⟩

theorem remOps_lineOk (a : TRef sig ⟨S1000, .i32⟩) (n : TRef sig ⟨S_, .i32⟩) (φ : fn_remainder.Bufs) :
    (remOps (F := F) a n φ).Forall LineOk :=
  List.forall_append.2 ⟨List.forall_append.2
    ⟨⟨lineOk_unary .., lineOk_nullary .., lineOk_binary .., lineOk_nullary ..⟩, whereOps_lineOk ..⟩,
    ⟨lineOk_unary .., lineOk_binary .., lineOk_nullary .., lineOk_unary .., lineOk_binary .., lineOk_nullary .., lineOk_unary ..,
      lineOk_binary .., lineOk_nullary .., lineOk_binary .., lineOk_unary .., lineOk_binary .., lineOk_binary .., lineOk_unary ..,
      lineOk_binary .., lineOk_ternary ..⟩⟩

theorem takeOps_lineOk (x : TRef sig ⟨S1000x128, .f32⟩) (t : TRef sig ⟨S1000, .i32⟩) (φ : fn_take.Bufs) :
    (takeOps (F := F) x t φ).Forall LineOk :=
  List.forall_append.2 ⟨List.forall_append.2
    ⟨⟨lineOk_nullary .., lineOk_unary .., lineOk_binary .., lineOk_nullary .., lineOk_unary .., lineOk_binary ..⟩, where0Ops_lineOk ..⟩,
    ⟨lineOk_unary .., lineOk_nullary .., lineOk_nullary .., lineOk_unary .., lineOk_binary .., lineOk_unary .., lineOk_unary ..,
      lineOk_binary .., lineOk_binary .., lineOk_nullary .., lineOk_binary .., lineOk_binary .., lineOk_unary .., lineOk_nullary ..,
      lineOk_unary .., lineOk_ternary ..⟩⟩

theorem ops1_lineOk : (ops1 (F := F)).Forall LineOk :=
  List.forall_append.2
    ⟨⟨lineOk_nullary .., lineOk_nullary .., lineOk_unary .., lineOk_binary .., lineOk_nullary ..⟩, remOps_lineOk ..⟩

/-- A take, the five operations of an affine map, and a rectifier: the shape of the first layer's stretches. -/
theorem layer_lineOk {x : TRef sig ⟨S1000x128, .f32⟩} {t : TRef sig ⟨S1000, .i32⟩} {φ : fn_take.Bufs}
    {o₁ o₂ o₃ o₄ o₅ : HloOp τ sig (Elt F)} {r : TRef sig ⟨S1000x128, .f32⟩} {ψ : fn_relu.Bufs}
    (h₁ : LineOk o₁) (h₂ : LineOk o₂) (h₃ : LineOk o₃) (h₄ : LineOk o₄) (h₅ : LineOk o₅) :
    (takeOps x t φ ++ [o₁, o₂, o₃, o₄, o₅] ++ reluOps r ψ).Forall LineOk :=
  List.forall_append.2 ⟨List.forall_append.2 ⟨takeOps_lineOk .., h₁, h₂, h₃, h₄, h₅⟩, reluOps_lineOk ..⟩

theorem ops2_lineOk : (ops2 (F := F)).Forall LineOk :=
  layer_lineOk (lineOk_unary ..) (lineOk_binary ..) (lineOk_unary ..) (lineOk_unary ..) (lineOk_binary ..)
theorem ops3_lineOk : (ops3 (F := F)).Forall LineOk :=
  layer_lineOk (lineOk_unary ..) (lineOk_binary ..) (lineOk_unary ..) (lineOk_unary ..) (lineOk_binary ..)
theorem ops4_lineOk : (ops4 (F := F)).Forall LineOk :=
  List.forall_append.2
    ⟨⟨lineOk_binary .., lineOk_unary .., lineOk_binary .., lineOk_unary .., lineOk_unary .., lineOk_binary ..⟩, reluOps_lineOk ..⟩
theorem ops5_lineOk : (ops5 (F := F)).Forall LineOk :=
  layer_lineOk (lineOk_unary ..) (lineOk_binary ..) (lineOk_unary ..) (lineOk_unary ..) (lineOk_binary ..)
theorem ops6_lineOk : (ops6 (F := F)).Forall LineOk :=
  layer_lineOk (lineOk_unary ..) (lineOk_binary ..) (lineOk_unary ..) (lineOk_unary ..) (lineOk_binary ..)
theorem ops7_lineOk : (ops7 (F := F)).Forall LineOk :=
  List.forall_append.2
    ⟨⟨lineOk_binary .., lineOk_unary .., lineOk_binary .., lineOk_unary .., lineOk_unary .., lineOk_binary ..⟩, reluOps_lineOk ..⟩
theorem ops8_lineOk : (ops8 (F := F)).Forall LineOk :=
  List.forall_append.2 ⟨⟨lineOk_binary .., lineOk_nullary .., lineOk_unary .., lineOk_binary ..⟩, reluOps_lineOk ..⟩
theorem ops9_lineOk : (ops9 (F := F)).Forall LineOk :=
  List.forall_append.2
    ⟨⟨lineOk_unary .., lineOk_binary .., lineOk_unary .., lineOk_unary .., lineOk_binary ..⟩, reluOps_lineOk ..⟩
theorem ops10_lineOk : (ops10 (F := F)).Forall LineOk := lineOk_binary ..
theorem ops11_lineOk : (ops11 (F := F)).Forall LineOk :=
  List.forall_append.2
    ⟨⟨lineOk_unary .., lineOk_binary .., lineOk_unary .., lineOk_unary .., lineOk_binary ..⟩, reluOps_lineOk ..⟩
theorem ops12_lineOk : (ops12 (F := F)).Forall LineOk :=
  ⟨lineOk_unary .., lineOk_binary .., lineOk_unary .., lineOk_unary .., lineOk_binary ..⟩

/-- Every operation of the line. -/
theorem ops_lineOk : (ops (F := F)).Forall LineOk :=
  List.forall_append.2
    ⟨List.forall_append.2 ⟨ops1_lineOk, List.forall_append.2 ⟨ops2_lineOk, List.forall_append.2 ⟨ops3_lineOk,
      List.forall_append.2 ⟨ops4_lineOk, List.forall_append.2 ⟨ops5_lineOk, List.forall_append.2 ⟨ops6_lineOk,
      List.forall_append.2 ⟨ops7_lineOk, List.forall_append.2 ⟨ops8_lineOk, List.forall_append.2 ⟨ops9_lineOk, ops10_lineOk⟩⟩⟩⟩⟩⟩⟩⟩⟩,
      List.forall_append.2 ⟨ops11_lineOk, ops12_lineOk⟩⟩

/-- The line touches TensorCore references only. -/
theorem ops_sub : (ops : List (HloOp τ sig (Elt F))).Forall fun op => op.bufs ⊆ tcRefs τ sig :=
  List.forall_iff_forall_mem.2 fun op h => (List.forall_iff_forall_mem.1 ops_lineOk op h).1

/-- Every operation of the line determines its results. -/
theorem ops_fresh : ∀ op ∈ (ops : List (HloOp τ sig (Elt F))), op.fresh = ∅ :=
  fun op h => (List.forall_iff_forall_mem.1 ops_lineOk op h).2

/-! ## The run -/

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of
    @main terminates, and every final state has each TensorCore buffer at the fold of the line's operations over
    its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after (ops (F := F)) (launchContents m d) (Proc.devRef .tc b) :=
  run_seq scopedRefs_eq scopedSems_eq defs main (fun _ => ops) main_eq (fun _ => ops_sub) m ρ (fun _ => ops_fresh)

end Cert.ReferenceIdeal.Hand

end
-- ==== Proof.RefStages.lean ====
/-
  The reference program's stages as functions of arrays.

  The reference computes, for a table X of 1000 rows: the ring neighbour of row l, nbr l = (l + 1) mod 1000, as a
  vector of row numbers (an iota plus one, reduced modulo 1000 with the sign correction of a floored remainder);
  the rows of X at a vector of row numbers (a take: wrap, gather, in-range mask, select against a filler); a dense
  layer with rectifier h(B) = max(B · Wᵀ + b, 0); a dense layer on two blocks side by side
  g(A | B) = max((A | B) · Gᵀ + c, 0); the halved sum of two such layers, rectified; and the last affine map.
  Each definition below is one of these, spelt with the operations the program applies, in the program's order.
-/
import proofs.«101825_g80925773791738_cont_9to1c4b_127_20_alg».proof.ReferenceIdeal

noncomputable section

namespace Cert.ReferenceIdeal.Hand

open Idealize.ShloMosaic Cert.ReferenceIdeal

variable {F : FTy → Type} [FloatOps F] [Facts]
open Facts₀ Facts

/-- A floored remainder of a vector of words by a scalar word: the truncated remainder, plus the divisor where the
    remainder is nonzero and of the other sign than the divisor. (A zero divisor is replaced by one.) -/
def remF (a : IVec S1000 32) (n : IVec S_ 32) : IVec S1000 32 :=
  select
    (andi
      (cmpi .ne
        (cmpi .slt
          (Host.remsi a (broadcastInDim S1000 ![] bcast_S_S1000 (select (cmpi .eq (id n) (constantI S_ 32 0#32)) (constantI S_ 32 1#32) (id n))))
          (broadcastInDim S1000 ![] bcast_S_S1000 (constantI S_ 32 0#32)))
        (broadcastInDim S1000 ![] bcast_S_S1000
          (cmpi .slt (select (cmpi .eq (id n) (constantI S_ 32 0#32)) (constantI S_ 32 1#32) (id n)) (constantI S_ 32 0#32))))
      (cmpi .ne
        (Host.remsi a (broadcastInDim S1000 ![] bcast_S_S1000 (select (cmpi .eq (id n) (constantI S_ 32 0#32)) (constantI S_ 32 1#32) (id n))))
        (broadcastInDim S1000 ![] bcast_S_S1000 (constantI S_ 32 0#32))))
    (addi
      (Host.remsi a (broadcastInDim S1000 ![] bcast_S_S1000 (select (cmpi .eq (id n) (constantI S_ 32 0#32)) (constantI S_ 32 1#32) (id n))))
      (broadcastInDim S1000 ![] bcast_S_S1000 (select (cmpi .eq (id n) (constantI S_ 32 0#32)) (constantI S_ 32 1#32) (id n))))
    (Host.remsi a (broadcastInDim S1000 ![] bcast_S_S1000 (select (cmpi .eq (id n) (constantI S_ 32 0#32)) (constantI S_ 32 1#32) (id n))))

/-- The row numbers 0 … 999. -/
def idxF : IVec S1000 32 := iotaInDim S1000 32 0

/-- The ring neighbours' row numbers: (l + 1) mod 1000. -/
def nbrF : IVec S1000 32 :=
  remF (addi idxF (broadcastInDim S1000 ![] bcast_S_S1000 (constantI S_ 32 1#32))) (constantI S_ 32 1000#32)

/-- The wrapped row numbers of a take, as a column. -/
def takeCol (t : IVec S1000 32) : IVec S1000x1 32 :=
  broadcastInDim S1000x1 ![0] bcast_S1000_S1000x1_0
    (select (cmpi .slt t (broadcastInDim S1000 ![] bcast_S_S1000 (constantI S_ 32 0#32)))
      (addi t (broadcastInDim S1000 ![] bcast_S_S1000 (constantI S_ 32 1000#32))) t)

/-- Which wrapped row numbers lie in [0, 999]. -/
def takeMask (t : IVec S1000 32) : IVec S1000 1 :=
  Host.reduce IntOp.andi
    (andi (cmpi .sge (takeCol t) (broadcastInDim S1000x1 ![] bcast_S_S1000x1 (constantI S_ 32 0#32)))
      (cmpi .sle (takeCol t)
        (broadcastInDim S1000x1 ![0, 1] bcast_S1x1_S1000x1_0_1 (broadcastInDim S1x1 ![1] bcast_S1_S1x1_1 (constantI S1 32 999#32)))))
    (constantI S_ 1 1#1) reducesTo_S1000x1_S1000_d1 h_S_

/-- The rows of the table at the row numbers t (a filler where a number is out of range). -/
def takeF (x : FVec F S1000x128 .f32) (t : IVec S1000 32) : FVec F S1000x128 .f32 :=
  select (broadcastInDim S1000x128 ![0] bcast_S1000_S1000x128_0 (takeMask t))
    (Host.gather gather_S1000x128_S1000x1_S1000x128_1_0_n_n_0_1_1128 x (takeCol t))
    (broadcastInDim S1000x128 ![] bcast_S_S1000x128 (constant S_ .f32 0x7FC00000#32))

/-- The rectifier: the maximum with zero. -/
def reluF (x : FVec F S1000x128 .f32) : FVec F S1000x128 .f32 :=
  maximumf x (broadcastInDim S1000x128 ![] bcast_S_S1000x128 (constant S_ .f32 0x00000000#32))

/-- A bias vector as a row, repeated over the 1000 rows. -/
def biasF (b : FVec F S128 .f32) : FVec F S1000x128 .f32 :=
  broadcastInDim S1000x128 ![0, 1] bcast_S1x128_S1000x128_0_1 (broadcastInDim S1x128 ![1] bcast_S128_S1x128_1 b)

/-- The first dense layer: max(B · Wᵀ + b, 0). -/
def hF (x : FVec F S1000x128 .f32) (w : FVec F S128x128 .f32) (b : FVec F S128 .f32) : FVec F S1000x128 .f32 :=
  reluF (addf (Host.dotGeneral dot_S1000x128_S128x128_S1000x128_1_0_0_1_n_n none x
      (transpose S128x128 [1, 0] w transposes_S128x128_S128x128_1_0)) (biasF b))

/-- Two blocks side by side. -/
def catF (a b : FVec F S1000x128 .f32) : FVec F S1000x256 .f32 :=
  concatenate S1000x256 1 [⟨S1000x128, a⟩, ⟨S1000x128, b⟩] concatenates_S1000x128_S1000x128_S1000x256_d1

/-- The second dense layer on a table of 256 columns: max(T · Gᵀ + c, 0). -/
def gCatF (t : FVec F S1000x256 .f32) (g : FVec F S128x256 .f32) (c : FVec F S128 .f32) : FVec F S1000x128 .f32 :=
  reluF (addf (Host.dotGeneral dot_S1000x256_S256x128_S1000x128_1_0_0_1_n_n none t
      (transpose S256x128 [1, 0] g transposes_S128x256_S256x128_1_0)) (biasF c))

/-- Half the sum of two tables, rectified. -/
def halfF (a b : FVec F S1000x128 .f32) : FVec F S1000x128 .f32 :=
  reluF (Host.divf (addf a b) (broadcastInDim S1000x128 ![] bcast_S_S1000x128 (constant S_ .f32 0x40000000#32)))

/-- The last affine map: E · Vᵀ + d. -/
def outF (e : FVec F S1000x128 .f32) (v : FVec F S2x128 .f32) (d : FVec F S2 .f32) : FVec F S1000x2 .f32 :=
  addf (Host.dotGeneral dot_S1000x128_S128x2_S1000x2_1_0_0_1_n_n none e (transpose S128x2 [1, 0] v transposes_S2x128_S128x2_1_0))
    (broadcastInDim S1000x2 ![0, 1] bcast_S1x2_S1000x2_0_1 (broadcastInDim S1x2 ![1] bcast_S2_S1x2_1 d))

/-- The whole reference: both neighbour orders through the two layers, their halved sum, the second layer again
    on the table's own first layer beside that, and the last affine map. -/
def refF (x : FVec F S1000x128 .f32) (w : FVec F S128x128 .f32) (b : FVec F S128 .f32) (g : FVec F S128x256 .f32)
    (c : FVec F S128 .f32) (v : FVec F S2x128 .f32) (d : FVec F S2 .f32) : FVec F S1000x2 .f32 :=
  outF
    (gCatF (catF (hF x w b)
        (halfF (gCatF (catF (hF (takeF x nbrF) w b) (hF (takeF x idxF) w b)) g c)
          (gCatF (catF (hF (takeF x idxF) w b) (hF (takeF x nbrF) w b)) g c))) g c)
    v d

end Cert.ReferenceIdeal.Hand

end
-- ==== Proof.LibHostLines.lean ====
/-
  A straight line of host operations, cut at one of them.

  The contents a line of operations leaves are a fold over the list.  To read ONE buffer after a long line without
  unfolding all of it: a buffer that no operation from position `k` on writes holds what the first `k` operations
  left (`after_eq_take`); the first `k + 1` operations are the first `k` followed by operation `k`
  (`after_take_succ`), whose own result lemma then applies; and two stretches run one after the other compose
  (`after_append`).  With these a buffer written once, by an operation whose operands are written earlier or
  never, is read in a few steps whatever the line's length and whatever the other operations are.
-/
import Idealize.ShloMosaic.Lib.StableHlo.Run

noncomputable section

namespace Cert.Lib.HostLines

open Idealize.ShloMosaic Idealize.ShloMosaic.StableHlo

section Lines
variable {τ : Topo} {sig : RefSig} {Val : EltTy → Type}

/-- Two stretches run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A buffer written by no operation from position `k` on holds what the first `k` operations left. -/
theorem after_eq_take (ops : List (HloOp τ sig Val)) (V : Valuation τ sig Val) (k : Nat) (b : DevRef τ sig)
    (h : ∀ op ∈ ops.drop k, b ∉ op.writes) : after ops V b = after (ops.take k) V b := by
  conv_lhs => rw [← List.take_append_drop k ops]
  rw [after_append, after_of_forall_not_mem _ _ h]

/-- The first `k + 1` operations are the first `k`, then operation `k`. -/
theorem after_take_succ (ops : List (HloOp τ sig Val)) (V : Valuation τ sig Val) (k : Nat) (hk : k < ops.length) :
    after (ops.take (k + 1)) V = (ops[k]).result (after (ops.take k) V) := by
  rw [List.take_succ_eq_append_getElem hk, after_append]; rfl

end Lines

end Cert.Lib.HostLines

end
-- ==== Proof.LibTypedRef.lean ====
/-
  A typed reference's two transports cancel.

  A tensor value's buffer is named by a reference together with the fact that the buffer's type is the value's; contents
  at the value's type are carried to contents of the buffer along that fact, and back. Carrying there and back (or back
  and there) is the identity, whatever the reference: so in a line of operations on typed references every
  intermediate buffer's pair of transports disappears, and only the ends remain.
-/
import Idealize.ShloMosaic.Lib.StableHlo

namespace Cert.Lib.TypedRef

open Idealize.ShloMosaic

variable {sig : RefSig} {Val : EltTy → Type} {T : BufTy}

/-- To the buffer's type and back. -/
theorem ofBuf_toBuf (x : StableHlo.TRef sig T) (v : T.Contents Val) : x.ofBuf (x.toBuf v) = v := by
  obtain ⟨ref, ty_eq, od, us⟩ := x
  subst ty_eq
  rfl

/-- Back and to the buffer's type. -/
theorem toBuf_ofBuf (x : StableHlo.TRef sig T) (v : x.ref.ty.Contents Val) : x.toBuf (x.ofBuf v) = v := by
  obtain ⟨ref, ty_eq, od, us⟩ := x
  subst ty_eq
  rfl

end Cert.Lib.TypedRef
-- ==== Proof.RefRead.lean ====
/-
  The reference's line of operations, read at its result buffer.

  The line is twelve stretches run in order, so the contents it leaves are the stretches' folds composed. Each
  stretch writes a known list of buffers and no other; a buffer outside the list keeps its contents across the
  stretch. At the one buffer a stretch produces for later ones, the fold is the stage function (the take of rows,
  a dense layer, the halved sum, …) of what the stretch found at the buffers it reads. Composed from the last
  stretch back to the first, the result buffer holds the reference's composed stage function of the seven
  arguments' launch contents, and the arguments' own buffers, written by no stretch, are unchanged.
-/
import proofs.«101825_g80925773791738_cont_9to1c4b_127_20_alg».proof.Proof.RefOps
import proofs.«101825_g80925773791738_cont_9to1c4b_127_20_alg».proof.Proof.RefStages
import proofs.«101825_g80925773791738_cont_9to1c4b_127_20_alg».proof.Proof.LibHostLines
import proofs.«101825_g80925773791738_cont_9to1c4b_127_20_alg».proof.Proof.LibTypedRef

noncomputable section

namespace Cert.ReferenceIdeal.Hand

open Idealize.ShloMosaic Idealize.ShloMosaic.StableHlo Cert.ReferenceIdeal

variable {F : FTy → Type} [FloatOps F] [Facts]
open Facts₀ Facts

/-! ## The buffers a function's line writes -/

/-- The buffers the floored remainder's line writes. -/
def remW (φ : fn_remainder.Bufs) : List (Ref sig .tc) :=
  [φ.v0.ref, φ.c.ref, φ.v1.ref, φ.c_0.ref, φ.call0.v0.ref, φ.v3.ref, φ.v4.ref, φ.c_1.ref, φ.v5.ref, φ.v6.ref, φ.c_2.ref,
    φ.v7.ref, φ.v8.ref, φ.c_3.ref, φ.v9.ref, φ.v10.ref, φ.v11.ref, φ.v12.ref, φ.v13.ref, φ.v14.ref, φ.v15.ref]

/-- The buffers the take's line writes. -/
def takeW (φ : fn_take.Bufs) : List (Ref sig .tc) :=
  [φ.c.ref, φ.v0.ref, φ.v1.ref, φ.c_0.ref, φ.v2.ref, φ.v3.ref, φ.call0.v0.ref, φ.v5.ref, φ.c_1.ref, φ.c_2.ref, φ.v6.ref,
    φ.v7.ref, φ.v8.ref, φ.v9.ref, φ.v10.ref, φ.v11.ref, φ.c_3.ref, φ.v12.ref, φ.v13.ref, φ.v14.ref, φ.cst.ref, φ.v15.ref,
    φ.v16.ref]

/-- The buffers the rectifier's line writes. -/
def reluW (φ : fn_relu.Bufs) : List (Ref sig .tc) := [φ.cst.ref, φ.v0.ref, φ.v1.ref]

/-- An operation whose one written buffer is in a list writes inside the list. -/
theorem writes_sub_of_mem {L : List (Ref sig .tc)} {y : Ref sig .tc} (h : y ∈ L) :
    ({Proc.devRef .tc y} : Finset (DevRef τ sig)) ⊆ (L.map (Proc.devRef (τ := τ) .tc)).toFinset :=
  Finset.singleton_subset_iff.mpr (List.mem_toFinset.mpr (List.mem_map_of_mem h))

/-! ## The stretches, one at a time

For each stretch: the buffers it writes (`wK`), that it writes no other (`opsK_writes`), hence that any other
buffer keeps its contents (`opsK_kept`); and what it leaves at the buffer later stretches read, as the stage
function of what it found at the buffers it reads. -/

/-- The buffers stretch 1 writes. -/
def w1 : List (Ref sig .tc) := [main_v0, main_c, main_v1, main_v2, main_c_0] ++ remW main_call0

theorem ops1_writes :
    (ops1 (F := F)).Forall fun op => op.writes ⊆ (w1.map (Proc.devRef (τ := τ) .tc)).toFinset := by
  simp only [ops1, takeOps, reluOps, remOps, whereOps, where0Ops, List.cons_append, List.nil_append, List.append_assoc, List.Forall]
  repeat' apply And.intro
  all_goals exact writes_sub_of_mem (by decide)

/-- Stretch 1 leaves every buffer it does not write as it found it. -/
theorem ops1_kept (W : Valuation τ sig (Elt F)) {r : Ref sig .tc} (hr : r ∉ w1) :
    after (ops1 (F := F)) W (no_index (Proc.devRef .tc r)) = W (Proc.devRef .tc r) :=
  after_of_writes_sub _ W ops1_writes hr

set_option maxRecDepth 8192 in
theorem ops1_v0 (W : Valuation τ sig (Elt F)) :
    after (ops1 (F := F)) W (no_index (Proc.devRef .tc main_v0))
      = idxF := by
  simp only [ops1, takeOps, reluOps, remOps, whereOps, where0Ops, List.cons_append, List.nil_append, List.append_assoc]
  after_results_simp
  rfl

set_option maxRecDepth 8192 in
theorem ops1_v3 (W : Valuation τ sig (Elt F)) :
    after (ops1 (F := F)) W (no_index (Proc.devRef .tc main_v3))
      = nbrF := by
  simp only [ops1, takeOps, reluOps, remOps, whereOps, where0Ops, List.cons_append, List.nil_append, List.append_assoc]
  after_results_simp
  rfl

/-- The buffers stretch 2 writes. -/
def w2 : List (Ref sig .tc) := takeW main_call1 ++ [main_v5, main_v6, main_v7, main_v8, main_v9] ++ reluW main_call2

theorem ops2_writes :
    (ops2 (F := F)).Forall fun op => op.writes ⊆ (w2.map (Proc.devRef (τ := τ) .tc)).toFinset := by
  simp only [ops2, takeOps, reluOps, remOps, whereOps, where0Ops, List.cons_append, List.nil_append, List.append_assoc, List.Forall]
  repeat' apply And.intro
  all_goals exact writes_sub_of_mem (by decide)

/-- Stretch 2 leaves every buffer it does not write as it found it. -/
theorem ops2_kept (W : Valuation τ sig (Elt F)) {r : Ref sig .tc} (hr : r ∉ w2) :
    after (ops2 (F := F)) W (no_index (Proc.devRef .tc r)) = W (Proc.devRef .tc r) :=
  after_of_writes_sub _ W ops2_writes hr

set_option maxRecDepth 8192 in
theorem ops2_v10 (W : Valuation τ sig (Elt F)) :
    after (ops2 (F := F)) W (no_index (Proc.devRef .tc main_v10))
      = hF (takeF (W (Proc.devRef .tc main_arg0)) (W (Proc.devRef .tc main_v3))) (W (Proc.devRef .tc main_arg1)) (W (Proc.devRef .tc main_arg2)) := by
  simp only [ops2, takeOps, reluOps, remOps, whereOps, where0Ops, List.cons_append, List.nil_append, List.append_assoc]
  after_results_simp
  rfl

/-- The buffers stretch 3 writes. -/
def w3 : List (Ref sig .tc) := takeW main_call3 ++ [main_v12, main_v13, main_v14, main_v15, main_v16] ++ reluW main_call4

theorem ops3_writes :
    (ops3 (F := F)).Forall fun op => op.writes ⊆ (w3.map (Proc.devRef (τ := τ) .tc)).toFinset := by
  simp only [ops3, takeOps, reluOps, remOps, whereOps, where0Ops, List.cons_append, List.nil_append, List.append_assoc, List.Forall]
  repeat' apply And.intro
  all_goals exact writes_sub_of_mem (by decide)

/-- Stretch 3 leaves every buffer it does not write as it found it. -/
theorem ops3_kept (W : Valuation τ sig (Elt F)) {r : Ref sig .tc} (hr : r ∉ w3) :
    after (ops3 (F := F)) W (no_index (Proc.devRef .tc r)) = W (Proc.devRef .tc r) :=
  after_of_writes_sub _ W ops3_writes hr

set_option maxRecDepth 8192 in
theorem ops3_v17 (W : Valuation τ sig (Elt F)) :
    after (ops3 (F := F)) W (no_index (Proc.devRef .tc main_v17))
      = hF (takeF (W (Proc.devRef .tc main_arg0)) (W (Proc.devRef .tc main_v0))) (W (Proc.devRef .tc main_arg1)) (W (Proc.devRef .tc main_arg2)) := by
  simp only [ops3, takeOps, reluOps, remOps, whereOps, where0Ops, List.cons_append, List.nil_append, List.append_assoc]
  after_results_simp
  rfl

/-- The buffers stretch 4 writes. -/
def w4 : List (Ref sig .tc) := [main_v18, main_v19, main_v20, main_v21, main_v22, main_v23] ++ reluW main_call5

theorem ops4_writes :
    (ops4 (F := F)).Forall fun op => op.writes ⊆ (w4.map (Proc.devRef (τ := τ) .tc)).toFinset := by
  simp only [ops4, takeOps, reluOps, remOps, whereOps, where0Ops, List.cons_append, List.nil_append, List.append_assoc, List.Forall]
  repeat' apply And.intro
  all_goals exact writes_sub_of_mem (by decide)

/-- Stretch 4 leaves every buffer it does not write as it found it. -/
theorem ops4_kept (W : Valuation τ sig (Elt F)) {r : Ref sig .tc} (hr : r ∉ w4) :
    after (ops4 (F := F)) W (no_index (Proc.devRef .tc r)) = W (Proc.devRef .tc r) :=
  after_of_writes_sub _ W ops4_writes hr

set_option maxRecDepth 8192 in
theorem ops4_v24 (W : Valuation τ sig (Elt F)) :
    after (ops4 (F := F)) W (no_index (Proc.devRef .tc main_v24))
      = gCatF (catF (W (Proc.devRef .tc main_v10)) (W (Proc.devRef .tc main_v17))) (W (Proc.devRef .tc main_arg3)) (W (Proc.devRef .tc main_arg4)) := by
  simp only [ops4, takeOps, reluOps, remOps, whereOps, where0Ops, List.cons_append, List.nil_append, List.append_assoc]
  after_results_simp
  rfl

/-- The buffers stretch 5 writes. -/
def w5 : List (Ref sig .tc) := takeW main_call6 ++ [main_v26, main_v27, main_v28, main_v29, main_v30] ++ reluW main_call7

theorem ops5_writes :
    (ops5 (F := F)).Forall fun op => op.writes ⊆ (w5.map (Proc.devRef (τ := τ) .tc)).toFinset := by
  simp only [ops5, takeOps, reluOps, remOps, whereOps, where0Ops, List.cons_append, List.nil_append, List.append_assoc, List.Forall]
  repeat' apply And.intro
  all_goals exact writes_sub_of_mem (by decide)

/-- Stretch 5 leaves every buffer it does not write as it found it. -/
theorem ops5_kept (W : Valuation τ sig (Elt F)) {r : Ref sig .tc} (hr : r ∉ w5) :
    after (ops5 (F := F)) W (no_index (Proc.devRef .tc r)) = W (Proc.devRef .tc r) :=
  after_of_writes_sub _ W ops5_writes hr

set_option maxRecDepth 8192 in
theorem ops5_v31 (W : Valuation τ sig (Elt F)) :
    after (ops5 (F := F)) W (no_index (Proc.devRef .tc main_v31))
      = hF (takeF (W (Proc.devRef .tc main_arg0)) (W (Proc.devRef .tc main_v0))) (W (Proc.devRef .tc main_arg1)) (W (Proc.devRef .tc main_arg2)) := by
  simp only [ops5, takeOps, reluOps, remOps, whereOps, where0Ops, List.cons_append, List.nil_append, List.append_assoc]
  after_results_simp
  rfl

/-- The buffers stretch 6 writes. -/
def w6 : List (Ref sig .tc) := takeW main_call8 ++ [main_v33, main_v34, main_v35, main_v36, main_v37] ++ reluW main_call9

theorem ops6_writes :
    (ops6 (F := F)).Forall fun op => op.writes ⊆ (w6.map (Proc.devRef (τ := τ) .tc)).toFinset := by
  simp only [ops6, takeOps, reluOps, remOps, whereOps, where0Ops, List.cons_append, List.nil_append, List.append_assoc, List.Forall]
  repeat' apply And.intro
  all_goals exact writes_sub_of_mem (by decide)

/-- Stretch 6 leaves every buffer it does not write as it found it. -/
theorem ops6_kept (W : Valuation τ sig (Elt F)) {r : Ref sig .tc} (hr : r ∉ w6) :
    after (ops6 (F := F)) W (no_index (Proc.devRef .tc r)) = W (Proc.devRef .tc r) :=
  after_of_writes_sub _ W ops6_writes hr

set_option maxRecDepth 8192 in
theorem ops6_v38 (W : Valuation τ sig (Elt F)) :
    after (ops6 (F := F)) W (no_index (Proc.devRef .tc main_v38))
      = hF (takeF (W (Proc.devRef .tc main_arg0)) (W (Proc.devRef .tc main_v3))) (W (Proc.devRef .tc main_arg1)) (W (Proc.devRef .tc main_arg2)) := by
  simp only [ops6, takeOps, reluOps, remOps, whereOps, where0Ops, List.cons_append, List.nil_append, List.append_assoc]
  after_results_simp
  rfl

/-- The buffers stretch 7 writes. -/
def w7 : List (Ref sig .tc) := [main_v39, main_v40, main_v41, main_v42, main_v43, main_v44] ++ reluW main_call10

theorem ops7_writes :
    (ops7 (F := F)).Forall fun op => op.writes ⊆ (w7.map (Proc.devRef (τ := τ) .tc)).toFinset := by
  simp only [ops7, takeOps, reluOps, remOps, whereOps, where0Ops, List.cons_append, List.nil_append, List.append_assoc, List.Forall]
  repeat' apply And.intro
  all_goals exact writes_sub_of_mem (by decide)

/-- Stretch 7 leaves every buffer it does not write as it found it. -/
theorem ops7_kept (W : Valuation τ sig (Elt F)) {r : Ref sig .tc} (hr : r ∉ w7) :
    after (ops7 (F := F)) W (no_index (Proc.devRef .tc r)) = W (Proc.devRef .tc r) :=
  after_of_writes_sub _ W ops7_writes hr

set_option maxRecDepth 8192 in
theorem ops7_v45 (W : Valuation τ sig (Elt F)) :
    after (ops7 (F := F)) W (no_index (Proc.devRef .tc main_v45))
      = gCatF (catF (W (Proc.devRef .tc main_v31)) (W (Proc.devRef .tc main_v38))) (W (Proc.devRef .tc main_arg3)) (W (Proc.devRef .tc main_arg4)) := by
  simp only [ops7, takeOps, reluOps, remOps, whereOps, where0Ops, List.cons_append, List.nil_append, List.append_assoc]
  after_results_simp
  rfl

/-- The buffers stretch 8 writes. -/
def w8 : List (Ref sig .tc) := [main_v46, main_cst, main_v47, main_v48] ++ reluW main_call11

theorem ops8_writes :
    (ops8 (F := F)).Forall fun op => op.writes ⊆ (w8.map (Proc.devRef (τ := τ) .tc)).toFinset := by
  simp only [ops8, takeOps, reluOps, remOps, whereOps, where0Ops, List.cons_append, List.nil_append, List.append_assoc, List.Forall]
  repeat' apply And.intro
  all_goals exact writes_sub_of_mem (by decide)

/-- Stretch 8 leaves every buffer it does not write as it found it. -/
theorem ops8_kept (W : Valuation τ sig (Elt F)) {r : Ref sig .tc} (hr : r ∉ w8) :
    after (ops8 (F := F)) W (no_index (Proc.devRef .tc r)) = W (Proc.devRef .tc r) :=
  after_of_writes_sub _ W ops8_writes hr

set_option maxRecDepth 8192 in
theorem ops8_v49 (W : Valuation τ sig (Elt F)) :
    after (ops8 (F := F)) W (no_index (Proc.devRef .tc main_v49))
      = halfF (W (Proc.devRef .tc main_v24)) (W (Proc.devRef .tc main_v45)) := by
  simp only [ops8, takeOps, reluOps, remOps, whereOps, where0Ops, List.cons_append, List.nil_append, List.append_assoc]
  after_results_simp
  rfl

/-- The buffers stretch 9 writes. -/
def w9 : List (Ref sig .tc) := [main_v50, main_v51, main_v52, main_v53, main_v54] ++ reluW main_call12

theorem ops9_writes :
    (ops9 (F := F)).Forall fun op => op.writes ⊆ (w9.map (Proc.devRef (τ := τ) .tc)).toFinset := by
  simp only [ops9, takeOps, reluOps, remOps, whereOps, where0Ops, List.cons_append, List.nil_append, List.append_assoc, List.Forall]
  repeat' apply And.intro
  all_goals exact writes_sub_of_mem (by decide)

/-- Stretch 9 leaves every buffer it does not write as it found it. -/
theorem ops9_kept (W : Valuation τ sig (Elt F)) {r : Ref sig .tc} (hr : r ∉ w9) :
    after (ops9 (F := F)) W (no_index (Proc.devRef .tc r)) = W (Proc.devRef .tc r) :=
  after_of_writes_sub _ W ops9_writes hr

set_option maxRecDepth 8192 in
theorem ops9_v55 (W : Valuation τ sig (Elt F)) :
    after (ops9 (F := F)) W (no_index (Proc.devRef .tc main_v55))
      = hF (W (Proc.devRef .tc main_arg0)) (W (Proc.devRef .tc main_arg1)) (W (Proc.devRef .tc main_arg2)) := by
  simp only [ops9, takeOps, reluOps, remOps, whereOps, where0Ops, List.cons_append, List.nil_append, List.append_assoc]
  after_results_simp
  rfl

/-- The buffers stretch 10 writes. -/
def w10 : List (Ref sig .tc) := [main_v56]

theorem ops10_writes :
    (ops10 (F := F)).Forall fun op => op.writes ⊆ (w10.map (Proc.devRef (τ := τ) .tc)).toFinset := by
  simp only [ops10, takeOps, reluOps, remOps, whereOps, where0Ops, List.cons_append, List.nil_append, List.append_assoc, List.Forall]
  repeat' apply And.intro
  all_goals exact writes_sub_of_mem (by decide)

/-- Stretch 10 leaves every buffer it does not write as it found it. -/
theorem ops10_kept (W : Valuation τ sig (Elt F)) {r : Ref sig .tc} (hr : r ∉ w10) :
    after (ops10 (F := F)) W (no_index (Proc.devRef .tc r)) = W (Proc.devRef .tc r) :=
  after_of_writes_sub _ W ops10_writes hr

set_option maxRecDepth 8192 in
theorem ops10_v56 (W : Valuation τ sig (Elt F)) :
    after (ops10 (F := F)) W (no_index (Proc.devRef .tc main_v56))
      = catF (W (Proc.devRef .tc main_v55)) (W (Proc.devRef .tc main_v49)) := by
  simp only [ops10, takeOps, reluOps, remOps, whereOps, where0Ops, List.cons_append, List.nil_append, List.append_assoc]
  after_results_simp
  rfl

/-- The buffers stretch 11 writes. -/
def w11 : List (Ref sig .tc) := [main_v57, main_v58, main_v59, main_v60, main_v61] ++ reluW main_call13

theorem ops11_writes :
    (ops11 (F := F)).Forall fun op => op.writes ⊆ (w11.map (Proc.devRef (τ := τ) .tc)).toFinset := by
  simp only [ops11, takeOps, reluOps, remOps, whereOps, where0Ops, List.cons_append, List.nil_append, List.append_assoc, List.Forall]
  repeat' apply And.intro
  all_goals exact writes_sub_of_mem (by decide)

/-- Stretch 11 leaves every buffer it does not write as it found it. -/
theorem ops11_kept (W : Valuation τ sig (Elt F)) {r : Ref sig .tc} (hr : r ∉ w11) :
    after (ops11 (F := F)) W (no_index (Proc.devRef .tc r)) = W (Proc.devRef .tc r) :=
  after_of_writes_sub _ W ops11_writes hr

set_option maxRecDepth 8192 in
theorem ops11_v62 (W : Valuation τ sig (Elt F)) :
    after (ops11 (F := F)) W (no_index (Proc.devRef .tc main_v62))
      = gCatF (W (Proc.devRef .tc main_v56)) (W (Proc.devRef .tc main_arg3)) (W (Proc.devRef .tc main_arg4)) := by
  simp only [ops11, takeOps, reluOps, remOps, whereOps, where0Ops, List.cons_append, List.nil_append, List.append_assoc]
  after_results_simp
  rfl

/-- The buffers stretch 12 writes. -/
def w12 : List (Ref sig .tc) := [main_v63, main_v64, main_v65, main_v66, main_v67]

theorem ops12_writes :
    (ops12 (F := F)).Forall fun op => op.writes ⊆ (w12.map (Proc.devRef (τ := τ) .tc)).toFinset := by
  simp only [ops12, takeOps, reluOps, remOps, whereOps, where0Ops, List.cons_append, List.nil_append, List.append_assoc, List.Forall]
  repeat' apply And.intro
  all_goals exact writes_sub_of_mem (by decide)

/-- Stretch 12 leaves every buffer it does not write as it found it. -/
theorem ops12_kept (W : Valuation τ sig (Elt F)) {r : Ref sig .tc} (hr : r ∉ w12) :
    after (ops12 (F := F)) W (no_index (Proc.devRef .tc r)) = W (Proc.devRef .tc r) :=
  after_of_writes_sub _ W ops12_writes hr

set_option maxRecDepth 8192 in
theorem ops12_v67 (W : Valuation τ sig (Elt F)) :
    after (ops12 (F := F)) W (no_index (Proc.devRef .tc main_v67))
      = outF (W (Proc.devRef .tc main_v62)) (W (Proc.devRef .tc main_arg5)) (W (Proc.devRef .tc main_arg6)) := by
  simp only [ops12, takeOps, reluOps, remOps, whereOps, where0Ops, List.cons_append, List.nil_append, List.append_assoc]
  after_results_simp
  rfl

/-! ## The whole line

The line is the twelve stretches in order, so its fold is theirs composed (`after_append`). Read at the result
buffer from the last stretch back to the first, each stretch's value lemma replaces a buffer by the stage function
of the buffers the stretch read, and each kept lemma carries an argument or an earlier result across a stretch that
does not write it: what remains is the composed stage function of the launch contents of the seven arguments. -/

/-- A buffer none of the twelve stretches writes keeps its contents through the whole line. -/
theorem ops_kept (V : Valuation τ sig (Elt F)) {r : Ref sig .tc}
    (hr : r ∉ w1 ++ (w2 ++ (w3 ++ (w4 ++ (w5 ++ (w6 ++ (w7 ++ (w8 ++ (w9 ++ (w10 ++ (w11 ++ w12))))))))))) :
    after (ops (F := F)) V (Proc.devRef .tc r) = V (Proc.devRef .tc r) := by
  simp only [List.mem_append, not_or] at hr
  obtain ⟨h1, h2, h3, h4, h5, h6, h7, h8, h9, h10, h11, h12⟩ := hr
  simp only [ops, opsA, opsB, Cert.Lib.HostLines.after_append]
  exact (ops12_kept _ h12).trans <| (ops11_kept _ h11).trans <| (ops10_kept _ h10).trans <| (ops9_kept _ h9).trans <|
    (ops8_kept _ h8).trans <| (ops7_kept _ h7).trans <| (ops6_kept _ h6).trans <| (ops5_kept _ h5).trans <|
    (ops4_kept _ h4).trans <| (ops3_kept _ h3).trans <| (ops2_kept _ h2).trans <| ops1_kept _ h1

set_option maxRecDepth 8192 in
/-- The line, read at the result buffer, is the reference's composed stage function of the arguments. -/
theorem out_eq (V : Valuation τ sig (Elt F)) :
    after (ops (F := F)) V (Proc.devRef .tc main_v67)
      = refF (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) := by
  simp only [ops, opsA, opsB, Cert.Lib.HostLines.after_append]
  simp (disch := decide) only [ops12_v67, ops11_v62, ops10_v56, ops9_v55, ops8_v49, ops7_v45, ops6_v38, ops5_v31, ops4_v24,
    ops3_v17, ops2_v10, ops1_v3, ops1_v0, ops12_kept, ops11_kept, ops10_kept, ops9_kept, ops8_kept, ops7_kept, ops6_kept,
    ops5_kept, ops4_kept, ops3_kept, ops2_kept, ops1_kept]
  rfl

theorem arg0_eq (V : Valuation τ sig (Elt F)) :
    after (ops (F := F)) V (Proc.devRef .tc main_arg0) = V (Proc.devRef .tc main_arg0) :=
  ops_kept V (by decide)

theorem arg1_eq (V : Valuation τ sig (Elt F)) :
    after (ops (F := F)) V (Proc.devRef .tc main_arg1) = V (Proc.devRef .tc main_arg1) :=
  ops_kept V (by decide)

theorem arg2_eq (V : Valuation τ sig (Elt F)) :
    after (ops (F := F)) V (Proc.devRef .tc main_arg2) = V (Proc.devRef .tc main_arg2) :=
  ops_kept V (by decide)

theorem arg3_eq (V : Valuation τ sig (Elt F)) :
    after (ops (F := F)) V (Proc.devRef .tc main_arg3) = V (Proc.devRef .tc main_arg3) :=
  ops_kept V (by decide)

theorem arg4_eq (V : Valuation τ sig (Elt F)) :
    after (ops (F := F)) V (Proc.devRef .tc main_arg4) = V (Proc.devRef .tc main_arg4) :=
  ops_kept V (by decide)

theorem arg5_eq (V : Valuation τ sig (Elt F)) :
    after (ops (F := F)) V (Proc.devRef .tc main_arg5) = V (Proc.devRef .tc main_arg5) :=
  ops_kept V (by decide)

theorem arg6_eq (V : Valuation τ sig (Elt F)) :
    after (ops (F := F)) V (Proc.devRef .tc main_arg6) = V (Proc.devRef .tc main_arg6) :=
  ops_kept V (by decide)

end Cert.ReferenceIdeal.Hand

end
-- ==== Proof.LibGatherSlabs.lean ====
/-
  `stablehlo.gather` of whole slabs of a rank-3 table, read at an index.

  What `jnp.take(table, idx, axis=0)` of a table `[N, H, D]` at a vector of `R` row numbers lowers to: a gather
  with offset_dims `[1, 2]`, collapsed_slice_dims `[0]`, start_index_map `[0]`, index_vector_dim 1 and slice
  sizes `[1, H, D]`, over the row numbers as a column `[R, 1]`. Result element `(r, h, d)` is the table at row
  `idx[r, 0]` — read as a signed integer and clamped into `[0, N − 1]`, as the gather clamps every start index —
  and position `(h, d)` inside that row's slab: on the row axis the operand index is the clamped start (no
  batching, and the axis is collapsed so it has no offset); the two inner axes are not in the start index map, so
  their start is 0, and they are the two offset axes, in order, so each takes the result's own coordinate.
-/
import Idealize.ShloMosaic.Lib.ValueIdx

noncomputable section

namespace Cert.LibGatherSlabs

open Idealize.ShloMosaic Idealize.ShloMosaic.ValueIdx

variable {α : Type}

/-- Those dimension numbers for a table `[N, H, D]`, row numbers `[R, 1]` and result `[R, H, D]`; their
    conditions `wf` are decided on a program's literal shapes. -/
abbrev slabsDims (N H D R : Nat)
    (wf : GatherDims.WF ⟨3, ![N, H, D]⟩ ⟨2, ![R, 1]⟩ ⟨3, ![R, H, D]⟩ [1, 2] [0] [] [0] [] 1 ![1, H, D]) :
    GatherDims ⟨3, ![N, H, D]⟩ ⟨2, ![R, 1]⟩ ⟨3, ![R, H, D]⟩ where
  offsetDims := [1, 2]
  collapsedSliceDims := [0]
  operandBatchingDims := []
  startIndicesBatchingDims := []
  startIndexMap := [0]
  indexVectorDim := 1
  sliceSizes := ![1, H, D]
  wf := wf

/-- THE GATHER READ AT `(r, h, d)`: the table at the row `idx[r, 0]`, read signed and clamped into `[0, N − 1]`,
    and position `(h, d)` of its slab. -/
theorem gather_slabs_apply {N H D R w : Nat} (hN : 0 < N)
    (wf : GatherDims.WF ⟨3, ![N, H, D]⟩ ⟨2, ![R, 1]⟩ ⟨3, ![R, H, D]⟩ [1, 2] [0] [] [0] [] 1 ![1, H, D])
    (x : (⟨3, ![N, H, D]⟩ : Shape).Idx → α) (idx : IVec ⟨2, ![R, 1]⟩ w) (r : Fin R) (h : Fin H) (d : Fin D) :
    Host.gather (slabsDims N H D R wf) x idx (ix3 r h d)
      = x (ix3 (⟨min (idx (ix2 r (0 : Fin 1))).toInt.toNat (N - 1), by omega⟩ : Fin N) h d) := by
  unfold Host.gather
  congr 1
  funext a
  refine Fin.ext ?_
  match a with
  | ⟨0, _⟩ =>
    show (slabsDims N H D R wf).start (ix3 r h d) idx 0 + (slabsDims N H D R wf).batchCoord (ix3 r h d) 0
        + (slabsDims N H D R wf).offCoord (ix3 r h d) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 3) ∈ (slabsDims N H D R wf).startIndexMap from List.mem_singleton.mpr rfl)]
    have hsi : (slabsDims N H D R wf).siIdx (ix3 r h d) ⟨List.idxOf (0 : Fin 3) (slabsDims N H D R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (slabsDims N H D R wf).start (ix3 r h d) idx 1 + (slabsDims N H D R wf).batchCoord (ix3 r h d) 1
        + (slabsDims N H D R wf).offCoord (ix3 r h d) 1 = h.val
    rw [GatherDims.batchCoord_eq_zero _ _ _ List.not_mem_nil]
    unfold GatherDims.start
    rw [dif_neg (show ¬ (1 : Fin 3) ∈ (slabsDims N H D R wf).startIndexMap from
      fun hm => absurd (congrArg Fin.val (List.mem_singleton.mp hm)) Nat.one_ne_zero)]
    simp only [Nat.add_zero, Nat.zero_add]
    rfl
  | ⟨2, _⟩ =>
    show (slabsDims N H D R wf).start (ix3 r h d) idx 2 + (slabsDims N H D R wf).batchCoord (ix3 r h d) 2
        + (slabsDims N H D R wf).offCoord (ix3 r h d) 2 = d.val
    rw [GatherDims.batchCoord_eq_zero _ _ _ List.not_mem_nil]
    unfold GatherDims.start
    rw [dif_neg (show ¬ (2 : Fin 3) ∈ (slabsDims N H D R wf).startIndexMap from
      fun hm => absurd (congrArg Fin.val (List.mem_singleton.mp hm)) (show (2 : Nat) ≠ 0 by decide))]
    simp only [Nat.add_zero, Nat.zero_add]
    rfl

end Cert.LibGatherSlabs

end
-- ==== Proof.LibGatherRows.lean ====
/-
  `stablehlo.gather` of whole rows of a rank-2 table, read at an index.

  What `jnp.take(table, idx, axis=0)` of a table `[N, C]` at a vector of `R` row numbers lowers to: a gather
  with offset_dims `[1]`, collapsed_slice_dims `[0]`, start_index_map `[0]`, index_vector_dim 1 and slice sizes
  `[1, C]`, over the row numbers as a column `[R, 1]`. Result element `(r, c)` is the table at row
  `idx[r, 0]` — read as a signed integer and clamped into `[0, N − 1]`, as the gather clamps every start index —
  and column `c`: on the row axis the operand index is the clamped start (no batching, the axis is collapsed so
  it has no offset), on the column axis it is the result's own column coordinate (the axis is not in the start
  index map, so its start is 0, and it is the one offset axis).
-/
import Idealize.ShloMosaic.Lib.ValueIdx

noncomputable section

namespace Cert.LibGatherRows

open Idealize.ShloMosaic Idealize.ShloMosaic.ValueIdx

variable {α : Type}

/-- Those dimension numbers for a table `[N, C]`, row numbers `[R, 1]` and result `[R, C]`; their conditions
    `wf` are decided on a program's literal shapes. -/
abbrev rowsDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE GATHER READ AT `(r, c)`: the table at the row `idx[r, 0]`, read signed and clamped into `[0, N − 1]`,
    and column `c`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowsDims N C R wf) x idx (ix2 r c)
      = x (ix2 (⟨min (idx (ix2 r (0 : Fin 1))).toInt.toNat (N - 1), by omega⟩ : Fin N) c) := by
  unfold Host.gather
  congr 1
  funext a
  refine Fin.ext ?_
  match a with
  | ⟨0, _⟩ =>
    show (rowsDims N C R wf).start (ix2 r c) idx 0 + (rowsDims N C R wf).batchCoord (ix2 r c) 0
        + (rowsDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 r c) ⟨List.idxOf (0 : Fin 2) (rowsDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowsDims N C R wf).start (ix2 r c) idx 1 + (rowsDims N C R wf).batchCoord (ix2 r c) 1
        + (rowsDims N C R wf).offCoord (ix2 r c) 1 = c.val
    rw [GatherDims.batchCoord_eq_zero _ _ _ List.not_mem_nil]
    unfold GatherDims.start
    rw [dif_neg (show ¬ (1 : Fin 2) ∈ (rowsDims N C R wf).startIndexMap from
      fun h => absurd (congrArg Fin.val (List.mem_singleton.mp h)) Nat.one_ne_zero)]
    simp only [Nat.add_zero, Nat.zero_add]
    rfl

end Cert.LibGatherRows

end
-- ==== Proof.LibBroadcastInDim.lean ====
/-
  A `broadcast_in_dim` of small shapes read at coordinates: a scalar spread over any shape; a vector [a] set as the
  column [a, 1]; a column [a, 1] spread over b lanes to [a, b]; a vector [b] set as the row [1, b]; a row [1, b]
  spread over a rows to [a, b]. Each is the library's general lemma (the result at j is the operand at j's
  coordinates on the axes the dimension map names, 0 on the operand's unit axes) with the per-axis arithmetic
  discharged for these shapes.
-/
import Idealize.ShloMosaic.Lib.Pipeline.Value
import Idealize.ShloMosaic.Lib.ValueIdx

namespace Cert.Lib.BroadcastInDim

open Idealize.ShloMosaic Idealize.ShloMosaic.ValueIdx

variable {α : Type}

/-- A scalar spread over any shape reads the scalar everywhere. -/
theorem scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector [a] set as the column [a, 1] reads, at (r, u), the vector at r. -/
theorem vec_col_apply {a : ℕ} (h : (⟨1, ![a]⟩ : Shape).BroadcastsInDim ⟨2, ![a, 1]⟩ (![0] : Fin 1 → Fin 2))
    (x : (⟨1, ![a]⟩ : Shape).Idx → α) (r : Fin a) (u : Fin 1) :
    broadcastInDim ⟨2, ![a, 1]⟩ (![0] : Fin 1 → Fin 2) h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- A column [a, 1] spread over b lanes reads, at (r, q), the column at r. -/
theorem col_lanes_apply {a b : ℕ} (h : (⟨2, ![a, 1]⟩ : Shape).BroadcastsInDim ⟨2, ![a, b]⟩ (![0, 1] : Fin 2 → Fin 2))
    (x : (⟨2, ![a, 1]⟩ : Shape).Idx → α) (r : Fin a) (q : Fin b) :
    broadcastInDim ⟨2, ![a, b]⟩ (![0, 1] : Fin 2 → Fin 2) h x (ix2 r q) = x (ix2 r (0 : Fin 1)) := by
  refine broadcastInDim_apply _ h x (ix2 r q) (ix2 r (0 : Fin 1)) fun ax => ?_
  match ax with
  | ⟨0, _⟩ =>
    show r.val = if a = 1 then 0 else r.val
    split
    · have := r.isLt; omega
    · rfl
  | ⟨1, _⟩ =>
    show 0 = if (1 : ℕ) = 1 then 0 else q.val
    rw [if_pos rfl]

/-- A vector [b] set as the row [1, b] reads, at (u, q), the vector at q. -/
theorem vec_row_apply {b : ℕ} (h : (⟨1, ![b]⟩ : Shape).BroadcastsInDim ⟨2, ![1, b]⟩ (![1] : Fin 1 → Fin 2))
    (x : (⟨1, ![b]⟩ : Shape).Idx → α) (u : Fin 1) (q : Fin b) :
    broadcastInDim ⟨2, ![1, b]⟩ (![1] : Fin 1 → Fin 2) h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row [1, b] spread over a rows reads, at (r, q), the row at q. -/
theorem row_rows_apply {a b : ℕ} (h : (⟨2, ![1, b]⟩ : Shape).BroadcastsInDim ⟨2, ![a, b]⟩ (![0, 1] : Fin 2 → Fin 2))
    (x : (⟨2, ![1, b]⟩ : Shape).Idx → α) (r : Fin a) (q : Fin b) :
    broadcastInDim ⟨2, ![a, b]⟩ (![0, 1] : Fin 2 → Fin 2) h x (ix2 r q) = x (ix2 (0 : Fin 1) q) := by
  refine broadcastInDim_apply _ h x (ix2 r q) (ix2 (0 : Fin 1) q) fun ax => ?_
  match ax with
  | ⟨0, _⟩ =>
    show 0 = if (1 : ℕ) = 1 then 0 else r.val
    rw [if_pos rfl]
  | ⟨1, _⟩ =>
    show q.val = if b = 1 then 0 else q.val
    split
    · have := q.isLt; omega
    · rfl

end Cert.Lib.BroadcastInDim
-- ==== Proof.LibTakeRows.lean ====
/-
  Taking whole rows of a table at a vector of row numbers, as a program prints it.

  The row numbers are wrapped (a negative number counts from the table's end: the height is added), set as a
  column, and used by a gather of whole rows (of a table [N, C]) or whole slabs (of a table [N, H, D]); beside the
  gather a mask says which wrapped numbers lie in [0, N − 1] — two comparisons, their conjunction, and a reduction
  by `and` over the column's unit axis —, and the result takes the gathered row where the mask holds and a filler
  elsewhere. When every row number is in range the mask holds everywhere and the result is the table's rows.
-/
import Idealize.ShloMosaic.Lib.ValueIdx
import Idealize.ShloMosaic.Lib.Pipeline.Value
import Idealize.ShloMosaic.PureOps.Reduce
import proofs.«101825_g80925773791738_cont_9to1c4b_127_20_alg».proof.Proof.LibGatherSlabs
import proofs.«101825_g80925773791738_cont_9to1c4b_127_20_alg».proof.Proof.LibGatherRows
import proofs.«101825_g80925773791738_cont_9to1c4b_127_20_alg».proof.Proof.LibBroadcastInDim

noncomputable section

namespace Cert.Lib.TakeRows

open Idealize.ShloMosaic Idealize.ShloMosaic.ValueIdx

abbrev S0 : Shape := ⟨0, ![]⟩
abbrev S1 : Shape := ⟨1, ![1]⟩
abbrev S11 : Shape := ⟨2, ![1, 1]⟩

/-- A row number wrapped: a negative one has the table's height added. -/
def wrapW (nW t : BitVec 32) : BitVec 32 := Scalar.select (IntOp.cmpi .slt t 0#32) (IntOp.addi t nW) t

/-- The wrapped row number lies between 0 and the last row, as one bit. -/
def okW (nW hiW t : BitVec 32) : BitVec 1 :=
  IntOp.andi (IntOp.cmpi .sge (wrapW nW t) 0#32) (IntOp.cmpi .sle (wrapW nW t) hiW)

/-- A left fold by `and` from 1 over words that are all 1 is 1. -/
theorem foldl_andi_one {ι : Type} (f : ι → BitVec 1) (hf : ∀ i, f i = 1#1) :
    ∀ l : List ι, l.foldl (fun r i => IntOp.andi r (f i)) 1#1 = 1#1
  | [] => rfl
  | a :: l => by
    rw [List.foldl_cons, hf a, show IntOp.andi (1#1) (1#1) = 1#1 from by decide]
    exact foldl_andi_one f hf l

section Numbers

variable {R : Nat} (nW hiW : BitVec 32) (t : IVec ⟨1, ![R]⟩ 32)
  (h0 : S0.BroadcastsInDim ⟨1, ![R]⟩ (![] : Fin 0 → Fin 1))
  (hc : (⟨1, ![R]⟩ : Shape).BroadcastsInDim ⟨2, ![R, 1]⟩ (![0] : Fin 1 → Fin 2))
  (h01 : S0.BroadcastsInDim ⟨2, ![R, 1]⟩ (![] : Fin 0 → Fin 2))
  (h1 : S1.BroadcastsInDim S11 (![1] : Fin 1 → Fin 2))
  (h1R : S11.BroadcastsInDim ⟨2, ![R, 1]⟩ (![0, 1] : Fin 2 → Fin 2))
  (hred : (⟨2, ![R, 1]⟩ : Shape).ReducesTo ([1] : List (Fin 2)) ⟨1, ![R]⟩) (hS : 0 < S0.numel)

/-- The wrapped row numbers as a column [R, 1]. -/
abbrev col : IVec ⟨2, ![R, 1]⟩ 32 :=
  broadcastInDim ⟨2, ![R, 1]⟩ ![0] hc
    (select (cmpi .slt t (broadcastInDim ⟨1, ![R]⟩ ![] h0 (constantI S0 32 0#32)))
      (addi t (broadcastInDim ⟨1, ![R]⟩ ![] h0 (constantI S0 32 nW))) t)

/-- Which row numbers are in range, one bit per number. -/
abbrev mask : IVec ⟨1, ![R]⟩ 1 :=
  Host.reduce IntOp.andi
    (andi (cmpi .sge (col nW t h0 hc) (broadcastInDim ⟨2, ![R, 1]⟩ ![] h01 (constantI S0 32 0#32)))
      (cmpi .sle (col nW t h0 hc)
        (broadcastInDim ⟨2, ![R, 1]⟩ ![0, 1] h1R (broadcastInDim S11 ![1] h1 (constantI S1 32 hiW)))))
    (constantI S0 1 1#1) hred hS

/-- The column at row r is the r-th number, wrapped. -/
theorem col_apply (r : Fin R) (u : Fin 1) : col nW t h0 hc (ix2 r u) = wrapW nW (t (ix1 r)) :=
  (Cert.Lib.BroadcastInDim.vec_col_apply hc _ r u).trans rfl

/-- With every number in range the mask is 1 everywhere. -/
theorem mask_eq_one (hok : ∀ r : Fin R, okW nW hiW (t (ix1 r)) = 1#1) (j : (⟨1, ![R]⟩ : Shape).Idx) :
    mask nW hiW t h0 hc h01 h1 h1R hred hS j = 1#1 := by
  unfold mask
  rw [Host.reduce_eq_foldl]
  refine foldl_andi_one _ (fun i => ?_) _
  obtain ⟨r, u, rfl⟩ : ∃ (r : Fin R) (u : Fin 1), i = ix2 r u := ⟨i 0, i 1, eq_ix2 i⟩
  show IntOp.andi (IntOp.cmpi .sge (col nW t h0 hc (ix2 r u)) 0#32) (IntOp.cmpi .sle (col nW t h0 hc (ix2 r u)) hiW) = 1#1
  rw [col_apply]
  exact hok r

/-- A vector [R] spread over the slabs [R, H, D] reads, at (r, h, d), the vector at r. -/
theorem vec_slabs_apply {α : Type} {H D : Nat}
    (hm : (⟨1, ![R]⟩ : Shape).BroadcastsInDim ⟨3, ![R, H, D]⟩ (![0] : Fin 1 → Fin 3))
    (x : (⟨1, ![R]⟩ : Shape).Idx → α) (r : Fin R) (h : Fin H) (d : Fin D) :
    broadcastInDim ⟨3, ![R, H, D]⟩ (![0] : Fin 1 → Fin 3) hm x (ix3 r h d) = x (ix1 r) := by
  refine broadcastInDim_apply _ hm x (ix3 r h d) (ix1 r) fun ax => ?_
  match ax with
  | ⟨0, _⟩ =>
    show r.val = if R = 1 then 0 else r.val
    split
    · have := r.isLt; omega
    · rfl

/-- A vector [R] spread over the rows [R, C] reads, at (r, q), the vector at r. -/
theorem vec_rows_apply {α : Type} {C : Nat}
    (hm : (⟨1, ![R]⟩ : Shape).BroadcastsInDim ⟨2, ![R, C]⟩ (![0] : Fin 1 → Fin 2))
    (x : (⟨1, ![R]⟩ : Shape).Idx → α) (r : Fin R) (q : Fin C) :
    broadcastInDim ⟨2, ![R, C]⟩ (![0] : Fin 1 → Fin 2) hm x (ix2 r q) = x (ix1 r) := by
  refine broadcastInDim_apply _ hm x (ix2 r q) (ix1 r) fun ax => ?_
  match ax with
  | ⟨0, _⟩ =>
    show r.val = if R = 1 then 0 else r.val
    split
    · have := r.isLt; omega
    · rfl

/-- THE TAKE OF SLABS READ AT (r, h, d): with every row number in range, the table's slab at the r-th number. -/
theorem slabs_apply {α : Type} {N H D : Nat} (hN : 0 < N)
    (wf : GatherDims.WF ⟨3, ![N, H, D]⟩ ⟨2, ![R, 1]⟩ ⟨3, ![R, H, D]⟩ [1, 2] [0] [] [0] [] 1 ![1, H, D])
    (G : GatherDims ⟨3, ![N, H, D]⟩ ⟨2, ![R, 1]⟩ ⟨3, ![R, H, D]⟩) (hG : G = Cert.LibGatherSlabs.slabsDims N H D R wf)
    (hm : (⟨1, ![R]⟩ : Shape).BroadcastsInDim ⟨3, ![R, H, D]⟩ (![0] : Fin 1 → Fin 3))
    (x : (⟨3, ![N, H, D]⟩ : Shape).Idx → α) (y : (⟨3, ![R, H, D]⟩ : Shape).Idx → α)
    (hok : ∀ r : Fin R, okW nW hiW (t (ix1 r)) = 1#1)
    (r : Fin R) (h : Fin H) (d : Fin D) (row : Fin N)
    (hrow : min (wrapW nW (t (ix1 r))).toInt.toNat (N - 1) = row.val) :
    select (broadcastInDim ⟨3, ![R, H, D]⟩ (![0] : Fin 1 → Fin 3) hm (mask nW hiW t h0 hc h01 h1 h1R hred hS))
      (Host.gather G x (col nW t h0 hc)) y (ix3 r h d) = x (ix3 row h d) := by
  subst hG
  rw [select_apply, vec_slabs_apply, mask_eq_one nW hiW t h0 hc h01 h1 h1R hred hS hok, select_one,
    Cert.LibGatherSlabs.gather_slabs_apply hN wf]
  refine congrArg (fun a => x (ix3 a h d)) (Fin.ext ?_)
  show min (col nW t h0 hc (ix2 r (0 : Fin 1))).toInt.toNat (N - 1) = row.val
  rw [col_apply]
  exact hrow

/-- THE TAKE OF ROWS READ AT (r, q): with every row number in range, the table's row at the r-th number. -/
theorem rows_apply {α : Type} {N C : Nat} (hN : 0 < N)
    (wf : GatherDims.WF ⟨2, ![N, C]⟩ ⟨2, ![R, 1]⟩ ⟨2, ![R, C]⟩ [1] [0] [] [0] [] 1 ![1, C])
    (G : GatherDims ⟨2, ![N, C]⟩ ⟨2, ![R, 1]⟩ ⟨2, ![R, C]⟩) (hG : G = Cert.LibGatherRows.rowsDims N C R wf)
    (hm : (⟨1, ![R]⟩ : Shape).BroadcastsInDim ⟨2, ![R, C]⟩ (![0] : Fin 1 → Fin 2))
    (x : (⟨2, ![N, C]⟩ : Shape).Idx → α) (y : (⟨2, ![R, C]⟩ : Shape).Idx → α)
    (hok : ∀ r : Fin R, okW nW hiW (t (ix1 r)) = 1#1)
    (r : Fin R) (q : Fin C) (row : Fin N)
    (hrow : min (wrapW nW (t (ix1 r))).toInt.toNat (N - 1) = row.val) :
    select (broadcastInDim ⟨2, ![R, C]⟩ (![0] : Fin 1 → Fin 2) hm (mask nW hiW t h0 hc h01 h1 h1R hred hS))
      (Host.gather G x (col nW t h0 hc)) y (ix2 r q) = x (ix2 row q) := by
  subst hG
  rw [select_apply, vec_rows_apply, mask_eq_one nW hiW t h0 hc h01 h1 h1R hred hS hok, select_one,
    Cert.LibGatherRows.gather_rows_apply hN wf]
  refine congrArg (fun a => x (ix2 a q)) (Fin.ext ?_)
  show min (col nW t h0 hc (ix2 r (0 : Fin 1))).toInt.toNat (N - 1) = row.val
  rw [col_apply]
  exact hrow

end Numbers

end Cert.Lib.TakeRows

end
-- ==== Proof.LibPlainDot.lean ====
/-
  A plain matrix product read at an entry. For the dimension numbers of `M×K` by `K×N` with no batch axis
  (`DotDims.plain M K N`: the left operand contracted on its columns, the right on its rows), the sum over
  the one-axis contraction index of any function of the two operand indices is the sum over `k : Fin K` of
  that function at `(p, k)` and `(k, c)` (`sum_plain`). Hence, on the extended reals, a `tpu.matmul` into
  the zero accumulator and a host `dot_general`, read at `(p, c)`, are both `∑ k, A (p, k) * B (k, c)`
  (`matmul_plain_zero_apply`, `dotGeneral_plain_apply`), for every `M`, `K`, `N`.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat}

/-- The left operand's index at output `(p, c)` and contraction coordinate `k` is `(p, k)`. -/
theorem lhsIdx_plain (p : Fin M) (c : Fin N) (k : Fin K) :
    (DotDims.plain M K N).lhsIdx (ix2 p c) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p c) _).trans hk

/-- The right operand's index at output `(p, c)` and contraction coordinate `k` is `(k, c)`. -/
theorem rhsIdx_plain (p : Fin M) (c : Fin N) (k : Fin K) :
    (DotDims.plain M K N).rhsIdx (ix2 p c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 p c) _).trans hk
  | ⟨1, _⟩ => rfl

/-- A sum over the contraction index of a plain product's dimension numbers, of any function of the two
    operand indices, is the sum over the shared axis's coordinate. -/
theorem sum_plain {β : Type*} [AddCommMonoid β]
    (f : (⟨2, ![M, K]⟩ : Shape).Idx → (⟨2, ![K, N]⟩ : Shape).Idx → β) (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  rw [lhsIdx_plain, rhsIdx_plain]

/-- On the extended reals a `tpu.matmul` of `A : M×K` and `B : K×N` into the zero accumulator, read at
    `(p, c)`, is `∑ k, A (p, k) * B (k, c)`. -/
theorem matmul_plain_zero_apply {φ₁ φ₂ : FTy} (prec : Option ContractPrecision)
    (A : FVec Ideal ⟨2, ![M, K]⟩ φ₁) (B : FVec Ideal ⟨2, ![K, N]⟩ φ₂) (p : Fin M) (c : Fin N) :
    FloatOps.matmul (DotDims.plain M K N) prec A B (constant ⟨2, ![M, N]⟩ .f32 0x00000000#32) (ix2 p c)
      = ∑ k : Fin K, A (ix2 p k) * B (ix2 k c) :=
  (Ideal.matmul_constant_zero_apply (DotDims.plain M K N) prec A B (ix2 p c)).trans
    (sum_plain (fun i j => A i * B j) p c)

/-- On the extended reals a host `dot_general` of `A : M×K` and `B : K×N`, read at `(p, c)`, is the
    same sum, whatever the schedule. -/
theorem dotGeneral_plain_apply {φ₁ φ₂ : FTy} (prec : Option ContractPrecision) (sched : HostSchedule)
    (A : FVec Ideal ⟨2, ![M, K]⟩ φ₁) (B : FVec Ideal ⟨2, ![K, N]⟩ φ₂) (p : Fin M) (c : Fin N) :
    FloatOps.dotGeneral (DotDims.plain M K N) prec sched A B (ix2 p c)
      = ∑ k : Fin K, A (ix2 p k) * B (ix2 k c) :=
  (Ideal.dotGeneral_apply (DotDims.plain M K N) prec sched A B (ix2 p c)).trans
    (sum_plain (fun i j => A i * B j) p c)

end Cert.Lib.PlainDot

end
-- ==== Proof.RefAt.lean ====
/-
  The reference's composed stages read at one entry.

  At the ideal instance (a float an extended real) each stage of the reference, read at a row l and a column, is the
  corresponding function of the specification: the row numbers are the words of l and of its ring neighbour
  (l + 1) mod 1000, both in range, so the takes read the table's rows at those numbers; a product with a
  transposed matrix is the sum over the shared index; the bias is repeated over the rows; the rectifier is the
  maximum with the zero word; two blocks side by side read the left block below column 128 and the right block
  from there on; the halving is the division by the word of two.
-/
import proofs.«101825_g80925773791738_cont_9to1c4b_127_20_alg».proof.Proof.RefStages
import proofs.«101825_g80925773791738_cont_9to1c4b_127_20_alg».proof.Proof.Spec
import proofs.«101825_g80925773791738_cont_9to1c4b_127_20_alg».proof.Proof.LibTakeRows
import proofs.«101825_g80925773791738_cont_9to1c4b_127_20_alg».proof.Proof.LibGatherRows
import proofs.«101825_g80925773791738_cont_9to1c4b_127_20_alg».proof.Proof.LibBroadcastInDim
import proofs.«101825_g80925773791738_cont_9to1c4b_127_20_alg».proof.Proof.LibPlainDot
import proofs.«101825_g80925773791738_cont_9to1c4b_127_20_alg».proof.Proof.LibConcatPair
import Idealize.ShloMosaic.Lib.ValueIdx
import Idealize.ShloMosaic.Lib.Pipeline.Value
import Idealize.ShloMosaic.PureOps.Ideal.Laws

noncomputable section

open scoped BigOperators

namespace Cert.ReferenceIdeal.At

open Idealize.ShloMosaic Idealize.ShloMosaic.ValueIdx Cert.ReferenceIdeal Cert.ReferenceIdeal.Hand

variable [Facts]
open Facts₀ Facts

/-! ## The row numbers -/

/-- The floored remainder of a + 1 by 1000, on words: the truncated remainder, plus 1000 where it is nonzero and
    negative. -/
def stepW (a : BitVec 32) : BitVec 32 :=
  Scalar.select
    (IntOp.andi
      (IntOp.cmpi .ne
        (IntOp.cmpi .slt
          (IntOp.remsi .host (IntOp.addi a 1#32) (Scalar.select (IntOp.cmpi .eq 1000#32 0#32) 1#32 1000#32)) 0#32)
        (IntOp.cmpi .slt (Scalar.select (IntOp.cmpi .eq 1000#32 0#32) 1#32 1000#32) 0#32))
      (IntOp.cmpi .ne
        (IntOp.remsi .host (IntOp.addi a 1#32) (Scalar.select (IntOp.cmpi .eq 1000#32 0#32) 1#32 1000#32)) 0#32))
    (IntOp.addi
      (IntOp.remsi .host (IntOp.addi a 1#32) (Scalar.select (IntOp.cmpi .eq 1000#32 0#32) 1#32 1000#32))
      (Scalar.select (IntOp.cmpi .eq 1000#32 0#32) 1#32 1000#32))
    (IntOp.remsi .host (IntOp.addi a 1#32) (Scalar.select (IntOp.cmpi .eq 1000#32 0#32) 1#32 1000#32))

/-- The row numbers at r: the word of r. -/
theorem idxF_apply (r : Fin 1000) : idxF (ix1 r) = BitVec.ofNat 32 r.val := rfl

/-- The neighbours' row numbers at r: the floored remainder of r + 1 by 1000. -/
theorem nbrF_apply (r : Fin 1000) : nbrF (ix1 r) = stepW (BitVec.ofNat 32 r.val) := rfl

/-- Every row's own number is in range … -/
theorem idx_ok : ∀ r : Fin 1000, Cert.Lib.TakeRows.okW 1000#32 999#32 (BitVec.ofNat 32 r.val) = 1#1 := by
  decide +kernel

/-- … and names that row. -/
theorem idx_row : ∀ r : Fin 1000,
    min (Cert.Lib.TakeRows.wrapW 1000#32 (BitVec.ofNat 32 r.val)).toInt.toNat 999 = r.val := by
  decide +kernel

/-- Every neighbour's number is in range … -/
theorem nbr_ok : ∀ r : Fin 1000, Cert.Lib.TakeRows.okW 1000#32 999#32 (stepW (BitVec.ofNat 32 r.val)) = 1#1 := by
  decide +kernel

/-- … and names the ring neighbour. -/
theorem nbr_row : ∀ r : Fin 1000,
    min (Cert.Lib.TakeRows.wrapW 1000#32 (stepW (BitVec.ofNat 32 r.val))).toInt.toNat 999 = (Cert.Spec.nb r).val := by
  decide +kernel

/-! ## The takes -/

/-- A take at row numbers all in range reads the table's row at the number. -/
theorem takeF_apply (x : FVec Ideal S1000x128 .f32) (t : IVec S1000 32)
    (hok : ∀ r : Fin 1000, Cert.Lib.TakeRows.okW 1000#32 999#32 (t (ix1 r)) = 1#1)
    (r : Fin 1000) (q : Fin 128) (row : Fin 1000)
    (hrow : min (Cert.Lib.TakeRows.wrapW 1000#32 (t (ix1 r))).toInt.toNat 999 = row.val) :
    takeF (F := Ideal) x t (ix2 r q) = x (ix2 row q) := by
  unfold takeF takeMask takeCol
  exact Cert.Lib.TakeRows.rows_apply (R := 1000) (N := 1000) (C := 128) 1000#32 999#32 t bcast_S_S1000
    bcast_S1000_S1000x1_0 bcast_S_S1000x1 bcast_S1_S1x1_1 bcast_S1x1_S1000x1_0_1 reducesTo_S1000x1_S1000_d1 h_S_
    (by norm_num) gather_S1000x128_S1000x1_S1000x128_1_0_n_n_0_1_1128_wf
    gather_S1000x128_S1000x1_S1000x128_1_0_n_n_0_1_1128 rfl bcast_S1000_S1000x128_0 x _ hok r q row hrow

/-- The take at the neighbours' numbers reads the neighbour's row. -/
theorem takeF_nbr (x : FVec Ideal S1000x128 .f32) (r : Fin 1000) (q : Fin 128) :
    takeF (F := Ideal) x nbrF (ix2 r q) = x (ix2 (Cert.Spec.nb r) q) :=
  takeF_apply x nbrF (fun r => nbr_ok r) r q (Cert.Spec.nb r) (nbr_row r)

/-- The take at the rows' own numbers reads the row. -/
theorem takeF_idx (x : FVec Ideal S1000x128 .f32) (r : Fin 1000) (q : Fin 128) :
    takeF (F := Ideal) x idxF (ix2 r q) = x (ix2 r q) :=
  takeF_apply x idxF (fun r => idx_ok r) r q r (idx_row r)

/-! ## The dense layers' operations -/

/-- The rectifier at an entry: the maximum with the zero word. -/
theorem reluF_apply (y : FVec Ideal S1000x128 .f32) (i : S1000x128.Idx) :
    reluF (F := Ideal) y i = Cert.Spec.relu (y i) := rfl

/-- The bias at (p, q): the vector at q. -/
theorem biasF_apply (b : FVec Ideal S128 .f32) (p : Fin 1000) (q : Fin 128) :
    biasF (F := Ideal) b (ix2 p q) = b (ix1 q) :=
  (Cert.Lib.BroadcastInDim.row_rows_apply bcast_S1x128_S1000x128_0_1 _ p q).trans
    (Cert.Lib.BroadcastInDim.vec_row_apply bcast_S128_S1x128_1 b (0 : Fin 1) q)

/-- The transposed square matrix at (k, j): the matrix at (j, k). -/
theorem transW_apply (w : FVec Ideal S128x128 .f32) (k j : Fin 128) :
    transpose S128x128 [1, 0] w transposes_S128x128_S128x128_1_0 (ix2 k j) = w (ix2 j k) :=
  transpose_apply _ w _ (ix2 k j) (ix2 j k) fun b => by
    match b with
    | ⟨0, _⟩ => rfl
    | ⟨1, _⟩ => rfl

/-- The transposed matrix of 256 columns at (k, j): the matrix at (j, k). -/
theorem transG_apply (g : FVec Ideal S128x256 .f32) (k : Fin 256) (j : Fin 128) :
    transpose S256x128 [1, 0] g transposes_S128x256_S256x128_1_0 (ix2 k j) = g (ix2 j k) :=
  transpose_apply _ g _ (ix2 k j) (ix2 j k) fun b => by
    match b with
    | ⟨0, _⟩ => rfl
    | ⟨1, _⟩ => rfl

/-- The transposed matrix of two rows at (k, o): the matrix at (o, k). -/
theorem transV_apply (v : FVec Ideal S2x128 .f32) (k : Fin 128) (o : Fin 2) :
    transpose S128x2 [1, 0] v transposes_S2x128_S128x2_1_0 (ix2 k o) = v (ix2 o k) :=
  transpose_apply _ v _ (ix2 k o) (ix2 o k) fun b => by
    match b with
    | ⟨0, _⟩ => rfl
    | ⟨1, _⟩ => rfl

/-- THE FIRST LAYER at (p, j). -/
theorem hF_apply (T : FVec Ideal S1000x128 .f32) (w : FVec Ideal S128x128 .f32) (b : FVec Ideal S128 .f32)
    (p : Fin 1000) (j : Fin 128) :
    hF (F := Ideal) T w b (ix2 p j)
      = Cert.Spec.layer1 (fun j k => w (ix2 j k)) (fun j => b (ix1 j)) (fun l k => T (ix2 l k)) p j := by
  unfold hF Cert.Spec.layer1
  rw [reluF_apply, addf_apply, biasF_apply]
  refine congrArg (fun s => Cert.Spec.relu (s + b (ix1 j))) ?_
  refine (Cert.Lib.PlainDot.dotGeneral_plain_apply (M := 1000) (K := 128) (N := 128) none .single T _ p j).trans ?_
  exact Finset.sum_congr rfl fun k _ => congrArg (fun s => T (ix2 p k) * s) (transW_apply w k j)

/-- Two blocks side by side at (p, k). -/
theorem catF_apply (a b : FVec Ideal S1000x128 .f32) (p : Fin 1000) (k : Fin 256) :
    catF (F := Ideal) a b (ix2 p k)
      = Cert.Spec.beside (fun l k => a (ix2 l k)) (fun l k => b (ix2 l k)) p k := by
  unfold catF Cert.Spec.beside
  by_cases h : k.val < 128
  · rw [dif_pos h]
    exact Cert.Lib.ConcatPair.cols_left a b concatenates_S1000x128_S1000x128_S1000x256_d1 p ⟨k.val, h⟩ k rfl
  · rw [dif_neg h]
    exact Cert.Lib.ConcatPair.cols_right a b concatenates_S1000x128_S1000x128_S1000x256_d1 p
      ⟨k.val - 128, by have := k.isLt; omega⟩ k (by show k.val = 128 + (k.val - 128); omega)

/-- THE SECOND LAYER at (p, j). -/
theorem gCatF_apply (T : FVec Ideal S1000x256 .f32) (g : FVec Ideal S128x256 .f32) (c : FVec Ideal S128 .f32)
    (p : Fin 1000) (j : Fin 128) :
    gCatF (F := Ideal) T g c (ix2 p j)
      = Cert.Spec.layer2 (fun j k => g (ix2 j k)) (fun j => c (ix1 j)) (fun l k => T (ix2 l k)) p j := by
  unfold gCatF Cert.Spec.layer2
  rw [reluF_apply, addf_apply, biasF_apply]
  refine congrArg (fun s => Cert.Spec.relu (s + c (ix1 j))) ?_
  refine (Cert.Lib.PlainDot.dotGeneral_plain_apply (M := 1000) (K := 256) (N := 128) none .single T _ p j).trans ?_
  exact Finset.sum_congr rfl fun k _ => congrArg (fun s => T (ix2 p k) * s) (transG_apply g k j)

/-- Half the sum of two tables, rectified, at an entry. -/
theorem halfF_apply (a b : FVec Ideal S1000x128 .f32) (i : S1000x128.Idx) :
    halfF (F := Ideal) a b i = Cert.Spec.relu (Ideal.div (a i + b i) Cert.Spec.twoW) := rfl

/-- THE LAST AFFINE MAP at (p, o). -/
theorem outF_apply (e : FVec Ideal S1000x128 .f32) (v : FVec Ideal S2x128 .f32) (d : FVec Ideal S2 .f32)
    (p : Fin 1000) (o : Fin 2) :
    outF (F := Ideal) e v d (ix2 p o)
      = Cert.Spec.affine (fun o k => v (ix2 o k)) (fun o => d (ix1 o)) (fun l k => e (ix2 l k)) p o := by
  unfold outF Cert.Spec.affine
  rw [addf_apply]
  refine congrArg₂ (· + ·) ?_ ?_
  · refine (Cert.Lib.PlainDot.dotGeneral_plain_apply (M := 1000) (K := 128) (N := 2) none .single e _ p o).trans ?_
    exact Finset.sum_congr rfl fun k _ => congrArg (fun s => e (ix2 p k) * s) (transV_apply v k o)
  · exact (Cert.Lib.BroadcastInDim.row_rows_apply bcast_S1x2_S1000x2_0_1 _ p o).trans
      (Cert.Lib.BroadcastInDim.vec_row_apply bcast_S2_S1x2_1 d (0 : Fin 1) o)

/-! ## The whole reference -/

/-- THE REFERENCE at (l, o): the specification of the argument arrays read at coordinates. -/
theorem refF_apply (x : FVec Ideal S1000x128 .f32) (w : FVec Ideal S128x128 .f32) (b : FVec Ideal S128 .f32)
    (g : FVec Ideal S128x256 .f32) (c : FVec Ideal S128 .f32) (v : FVec Ideal S2x128 .f32) (d : FVec Ideal S2 .f32)
    (l : Fin 1000) (o : Fin 2) :
    refF (F := Ideal) x w b g c v d (ix2 l o)
      = Cert.Spec.refSpec (fun l k => x (ix2 l k)) (fun j k => w (ix2 j k)) (fun j => b (ix1 j))
          (fun j k => g (ix2 j k)) (fun j => c (ix1 j)) (fun o k => v (ix2 o k)) (fun o => d (ix1 o)) l o := by
  unfold refF Cert.Spec.refSpec
  simp only [outF_apply, gCatF_apply, catF_apply, halfF_apply, hF_apply, takeF_nbr, takeF_idx]

end Cert.ReferenceIdeal.At

end
-- ==== Proof.lean ====
/-
  The certificate: a ring graph network's forward pass as one kernel, against its plain reference.

  Both programs compute, for a table X of 1000 rows, a first dense layer with rectifier H, a second dense layer on
  two 128-column blocks side by side, applied to H at the ring neighbour beside H and to H beside H at the ring
  neighbour, the rectified half of their sum, the second layer again on H beside that, and a last affine map to two
  columns. The reference takes the neighbours' rows of X first and multiplies by the whole 256-column matrix; the
  kernel forms the products of H with the two halves of that matrix once, shifts their rows, keeps the sum
  unhalved and halves the matrix instead. On the extended reals the two agree for every input (Proof/Algebra.lean):
  a sum over two blocks side by side splits, addition and multiplication are commutative and associative, and for
  F ≥ 0 the rectified half of F times w is F times (w · ½).

  The kernel's frames are the generated frame certificates. Its result array is the body's arithmetic of the whole
  argument arrays (Proof/KernelValue.lean, over the generated blockwise value leg), read at a row and a column in
  Proof/KernelAt.lean. The reference is a straight line of host operations (Proof/RefOps.lean, Proof/RefRun.lean),
  whose fold at the result buffer is its stages composed (Proof/RefStages.lean, Proof/RefRead.lean), read at a row
  and a column in Proof/RefAt.lean. Nothing was rewritten by the ideal pass, so the preservation claim is trivial.
-/
import proofs.«101825_g80925773791738_cont_9to1c4b_127_20_alg».proof.Defs
import proofs.«101825_g80925773791738_cont_9to1c4b_127_20_alg».proof.Proof.Gen.Kernel
import proofs.«101825_g80925773791738_cont_9to1c4b_127_20_alg».proof.Proof.Gen.Kernel.Skeleton
import proofs.«101825_g80925773791738_cont_9to1c4b_127_20_alg».proof.Proof.Gen.Kernel.Launch
import proofs.«101825_g80925773791738_cont_9to1c4b_127_20_alg».proof.Proof.Gen.Kernel.Points
import proofs.«101825_g80925773791738_cont_9to1c4b_127_20_alg».proof.Proof.Gen.Kernel.Frame
import proofs.«101825_g80925773791738_cont_9to1c4b_127_20_alg».proof.Proof.Gen.KernelIdeal
import proofs.«101825_g80925773791738_cont_9to1c4b_127_20_alg».proof.Proof.Gen.KernelIdeal.Skeleton
import proofs.«101825_g80925773791738_cont_9to1c4b_127_20_alg».proof.Proof.Gen.KernelIdeal.Launch
import proofs.«101825_g80925773791738_cont_9to1c4b_127_20_alg».proof.Proof.Gen.KernelIdeal.Points
import proofs.«101825_g80925773791738_cont_9to1c4b_127_20_alg».proof.Proof.Gen.KernelIdeal.Frame
import proofs.«101825_g80925773791738_cont_9to1c4b_127_20_alg».proof.Proof.Gen.ReferenceIdeal
import proofs.«101825_g80925773791738_cont_9to1c4b_127_20_alg».proof.Proof.Gen.Pre_finite_inputs
import proofs.«101825_g80925773791738_cont_9to1c4b_127_20_alg».proof.Proof.KernelValue
import proofs.«101825_g80925773791738_cont_9to1c4b_127_20_alg».proof.Proof.KernelAt
import proofs.«101825_g80925773791738_cont_9to1c4b_127_20_alg».proof.Proof.Algebra
import proofs.«101825_g80925773791738_cont_9to1c4b_127_20_alg».proof.Proof.RefRun
import proofs.«101825_g80925773791738_cont_9to1c4b_127_20_alg».proof.Proof.RefRead
import proofs.«101825_g80925773791738_cont_9to1c4b_127_20_alg».proof.Proof.RefAt
import Idealize.ShloMosaic.Adequacy
import Idealize.ShloMosaic.Init

noncomputable section

namespace Cert.Proof

open Idealize.ShloMosaic Idealize.ShloMosaic.ValueIdx Idealize.SL.Sem

/-- The kernel as printed runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs, and no operation of its line writes an argument buffer. -/
theorem frame_ri : Cert.frame_ReferenceIdeal := fun m ρ _ =>
  (θ_run Cert.ReferenceIdeal.defs _ _).mono
    (fun r h c => ⟨(h c _).trans (Cert.ReferenceIdeal.Hand.arg0_eq _), (h c _).trans (Cert.ReferenceIdeal.Hand.arg1_eq _),
      (h c _).trans (Cert.ReferenceIdeal.Hand.arg2_eq _), (h c _).trans (Cert.ReferenceIdeal.Hand.arg3_eq _),
      (h c _).trans (Cert.ReferenceIdeal.Hand.arg4_eq _), (h c _).trans (Cert.ReferenceIdeal.Hand.arg5_eq _),
      (h c _).trans (Cert.ReferenceIdeal.Hand.arg6_eq _)⟩)
    (Cert.ReferenceIdeal.Hand.run (F := Ideal) m ρ)

/-- The ideal pass rewrote nothing. -/
theorem preserves : Cert.preserves_Kernel_KernelIdeal := trivial

/-- The reference's stages composed, at any index, are the kernel's arithmetic of the same arrays: both are read
    at the index's row and column, where the two specifications agree. -/
theorem result_eq (x : FVec Ideal Cert.KernelIdeal.S1000x128 .f32) (w : FVec Ideal Cert.KernelIdeal.S128x128 .f32)
    (b : FVec Ideal Cert.KernelIdeal.S128 .f32) (g : FVec Ideal Cert.KernelIdeal.S128x256 .f32)
    (c : FVec Ideal Cert.KernelIdeal.S128 .f32) (v : FVec Ideal Cert.KernelIdeal.S2x128 .f32)
    (d : FVec Ideal Cert.KernelIdeal.S2 .f32) :
    Cert.ReferenceIdeal.Hand.refF (F := Ideal) x w b g c v d = Cert.KernelIdeal.Whole.kerF (F := Ideal) x w b g c v d := by
  funext i
  obtain ⟨l, o, rfl⟩ : ∃ (l : Fin 1000) (o : Fin 2), i = ix2 l o := ⟨i 0, i 1, eq_ix2 i⟩
  rw [Cert.ReferenceIdeal.At.refF_apply, Cert.KernelIdeal.At.kerF_apply, Cert.Spec.kerSpec_eq_refSpec]

/-- At the ideal instance, from memories agreeing on the arguments, both programs run and end with the same
    result array. -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun r h c => ⟨((h c _).trans (Cert.ReferenceIdeal.Hand.out_eq _)).trans ?_,
      (h c _).trans (Cert.ReferenceIdeal.Hand.arg0_eq _), (h c _).trans (Cert.ReferenceIdeal.Hand.arg1_eq _),
      (h c _).trans (Cert.ReferenceIdeal.Hand.arg2_eq _), (h c _).trans (Cert.ReferenceIdeal.Hand.arg3_eq _),
      (h c _).trans (Cert.ReferenceIdeal.Hand.arg4_eq _), (h c _).trans (Cert.ReferenceIdeal.Hand.arg5_eq _),
      (h c _).trans (Cert.ReferenceIdeal.Hand.arg6_eq _)⟩)
    (Cert.ReferenceIdeal.Hand.run (F := Ideal) m' ρ')
  obtain ⟨e0, e1, e2, e3, e4, e5, e6⟩ := hagree c
  show Cert.ReferenceIdeal.Hand.refF (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)) = _
  rw [e0, e1, e2, e3, e4, e5, e6]
  exact result_eq _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
